-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x32 : Shape := ⟨2, ![100000, 32]⟩
abbrev S3200000 : Shape := ⟨1, ![3200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S32 .f32) (main_arg10 : FVec F S32x64 .f32) (main_arg11 : FVec F S32 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x64 .f32 := Host.absf main_arg10
  let main_cst_14 : FVec F S_ .f32 := constant S_ .f32 0x7F800000#32
  let main_v40 : FVec F S32x64 .f32 := broadcastInDim S32x64 ![] bcast_S_S32x64 main_cst_14
  let main_v41 : IVec S32x64 1 := cmpf .olt main_v39 main_v40
  let main_c_15 : IVec S_ 1 := constantI S_ 1 1#1
  let main_v42 : IVec S_ 1 := (fun x v => Host.reduce IntOp.andi x v reducesTo_S32x64_S_d0_1 h_S_) main_v41 main_c_15
  let main_v43 : IVec S_ 1 := andi main_v38 main_v42
  let main_v44 : FVec F S32 .f32 := Host.absf main_arg11
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S32x64 .f32) (main_arg9 : FVec F S32 .f32) (main_arg10 : FVec F S32x64 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg8
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x64 .f32) (main_arg1 : FVec F S100000x32 .f32) (main_arg2 : IVec S3200000 32) (main_arg3 : IVec S3200000 32) (main_arg4 : FVec F S64x64 .f32) (main_arg5 : FVec F S64 .f32) (main_arg6 : FVec F S64x64 .f32) (main_arg7 : FVec F S64 .f32) (main_arg8 : FVec F S32x64 .f32) (main_arg9 : FVec F S32 .f32) (main_arg10 : FVec F S32x64 .f32) (main_arg11 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S100000x64 : Shape := ⟨2, ![100000, 64]⟩
abbrev S100000x32 : Shape := ⟨2, ![100000, 32]⟩
abbrev S3200000 : Shape := ⟨1, ![3200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S64x128 : Shape := ⟨2, ![64, 128]⟩
abbrev S128 : Shape := ⟨1, ![128]⟩
abbrev S1x128 : Shape := ⟨2, ![1, 128]⟩
abbrev S64x32 : Shape := ⟨2, ![64, 32]⟩
abbrev S1x32 : Shape := ⟨2, ![1, 32]⟩
abbrev S5000x64 : Shape := ⟨2, ![5000, 64]⟩
abbrev S5000x32 : Shape := ⟨2, ![5000, 32]⟩
abbrev S5000x1 : Shape := ⟨2, ![5000, 1]⟩
abbrev S5000x128 : Shape := ⟨2, ![5000, 128]⟩
abbrev S5000 : Shape := ⟨1, ![5000]⟩

abbrev nBuf : Space → Nat
  | .hbm => 58
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S100000x32, .f32⟩
  | .hbm, ⟨2, _⟩ => ⟨S3200000, .i32⟩
  | .hbm, ⟨3, _⟩ => ⟨S3200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S_, .f32⟩
  | .hbm, ⟨22, _⟩ => ⟨S100000x32, .f32⟩
  | .hbm, ⟨23, _⟩ => ⟨S3200000x1, .i32⟩
  | .hbm, ⟨24, _⟩ => ⟨S100000x32, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S64x64, .f32⟩
  | .hbm, ⟨46, _⟩ => ⟨S64x64, .f32⟩
  | .hbm, ⟨47, _⟩ => ⟨S64x128, .f32⟩
  | .hbm, ⟨48, _⟩ => ⟨S64x128, .bf16⟩
  | .hbm, ⟨49, _⟩ => ⟨S128, .f32⟩
  | .hbm, ⟨50, _⟩ => ⟨S1x128, .f32⟩
  | .hbm, ⟨51, _⟩ => ⟨S64x32, .f32⟩
  | .hbm, ⟨52, _⟩ => ⟨S64x32, .bf16⟩
  | .hbm, ⟨53, _⟩ => ⟨S64x32, .f32⟩
  | .hbm, ⟨54, _⟩ => ⟨S64x32, .bf16⟩
  | .hbm, ⟨55, _⟩ => ⟨S1x32, .f32⟩
  | .hbm, ⟨56, _⟩ => ⟨S1x32, .f32⟩
  | .hbm, ⟨57, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x1, .f32⟩
  | .local _ .vmem, ⟨7, _⟩ => ⟨S5000x1, .f32⟩
  | .local _ .vmem, ⟨8, _⟩ => ⟨S64x128, .bf16⟩
  | .local _ .vmem, ⟨9, _⟩ => ⟨S1x128, .f32⟩
  | .local _ .vmem, ⟨10, _⟩ => ⟨S64x32, .bf16⟩
  | .local _ .vmem, ⟨11, _⟩ => ⟨S1x32, .f32⟩
  | .local _ .vmem, ⟨12, _⟩ => ⟨S64x32, .bf16⟩
  | .local _ .vmem, ⟨13, _⟩ => ⟨S1x32, .f32⟩
  | .local _ .vmem, ⟨14, _⟩ => ⟨S5000x64, .f32⟩
  | .local _ .vmem, ⟨15, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x32 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  shapeCasts_S100000_S100000x1 : S100000.ShapeCasts S100000x1
  transposes_S64x64_S64x64_1_0 : S64x64.Transposes [1, 0] S64x64
  concatenates_S64x64_S64x64_S64x128_d1 : Shape.Concatenates [S64x64, S64x64] S64x128 1
  bitsLt_bf16_f32 : FTy.bits .bf16 < FTy.bits .f32
  concatenates_S64_S64_S128_d0 : Shape.Concatenates [S64, S64] S128 0
  shapeCasts_S128_S1x128 : S128.ShapeCasts S1x128
  transposes_S32x64_S64x32_1_0 : S32x64.Transposes [1, 0] S64x32
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  concatenates_S5000x32_S5000x32_S5000x64_d1 : Shape.Concatenates [S5000x32, S5000x32] S5000x64 1
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  slices_S5000x64_o0_0_S5000x32 : S5000x64.Slices ![0, 0] S5000x32
  slices_S5000x64_o0_32_S5000x32 : S5000x64.Slices ![0, 32] S5000x32
  reduces_S5000x32_S5000 : S5000x32.Reduces [1] S5000
  shapeCasts_S5000_S5000x1 : S5000.ShapeCasts S5000x1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S5000x64_S64x32_S5000x32_1_0_0_1_n_n_wf : DotDims.WF S5000x64 S64x32 S5000x32 [1] [0] [0] [1] [] []
  dot_S5000x64_S64x128_S5000x128_1_0_0_1_n_n_wf : DotDims.WF S5000x64 S64x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .bf16 = 32 ∨ (Rect.block (s := S64x32) S64x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x32.size a ≤ S64x32.size a
  hwx0_8 : ∀ i : grid0.Coords, EltTy.bits .bf16 = 32 ∨ (Rect.block (s := S64x32) S64x32.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x64.size a ≤ S100000x64.size a
  hwx0_10 : ∀ i : grid0.Coords, EltTy.bits .f32 = 32 ∨ (Rect.block (s := S100000x64) S5000x64.size (cc0_transform_10 i) (hinb0_10 i)).WholeWords (EltTy.packing .f32)

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v25) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S64x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v34) S5000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x32 : Shape := ⟨2, ![100000, 32]⟩
abbrev S3200000 : Shape := ⟨1, ![3200000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S64x32 : Shape := ⟨2, ![64, 32]⟩
abbrev S1x32 : Shape := ⟨2, ![1, 32]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x32, .f32⟩
  | .hbm, ⟨2, _⟩ => ⟨S3200000, .i32⟩
  | .hbm, ⟨3, _⟩ => ⟨S3200000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S32x64, .f32⟩
  | .hbm, ⟨9, _⟩ => ⟨S32, .f32⟩
  | .hbm, ⟨10, _⟩ => ⟨S32x64, .f32⟩
  | .hbm, ⟨11, _⟩ => ⟨S32, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x32, .f32⟩
  | .hbm, ⟨21, _⟩ => ⟨S_, .f32⟩
  | .hbm, ⟨22, _⟩ => ⟨S100000x32, .f32⟩
  | .hbm, ⟨23, _⟩ => ⟨S3200000x1, .i32⟩
  | .hbm, ⟨24, _⟩ => ⟨S100000x32, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S100000, .f32⟩
  | .hbm, ⟨29, _⟩ => ⟨S3200000x1, .i32⟩
  | .hbm, ⟨30, _⟩ => ⟨S100000, .f32⟩
  | .hbm, ⟨31, _⟩ => ⟨S100000x1, .f32⟩
  | .hbm, ⟨32, _⟩ => ⟨S_, .f32⟩
  | .hbm, ⟨33, _⟩ => ⟨S100000x1, .f32⟩
  | .hbm, ⟨34, _⟩ => ⟨S100000x1, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x32, .f32⟩
  | .hbm, ⟨40, _⟩ => ⟨S100000x32, .f32⟩
  | .hbm, ⟨41, _⟩ => ⟨S_, .f32⟩
  | .hbm, ⟨42, _⟩ => ⟨S_, .f32⟩
  | .hbm, ⟨43, _⟩ => ⟨S100000x32, .i1⟩
  | .hbm, ⟨44, _⟩ => ⟨S100000x32, .f32⟩
  | .hbm, ⟨45, _⟩ => ⟨S100000x32, .f32⟩
  | .hbm, ⟨46, _⟩ => ⟨S100000x64, .f32⟩
  | .hbm, ⟨47, _⟩ => ⟨S64x32, .f32⟩
  | .hbm, ⟨48, _⟩ => ⟨S100000x32, .f32⟩
  | .hbm, ⟨49, _⟩ => ⟨S1x32, .f32⟩
  | .hbm, ⟨50, _⟩ => ⟨S100000x32, .f32⟩
  | .hbm, ⟨51, _⟩ => ⟨S100000x32, .f32⟩
  | .hbm, ⟨52, _⟩ => ⟨S_, .f32⟩
  | .hbm, ⟨53, _⟩ => ⟨S100000x32, .f32⟩
  | .hbm, ⟨54, _⟩ => ⟨S100000x32, .f32⟩
  | .hbm, ⟨55, _⟩ => ⟨S64x64, .f32⟩
  | .hbm, ⟨56, _⟩ => ⟨S100000x64, .f32⟩
  | .hbm, ⟨57, _⟩ => ⟨S1x64, .f32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S100000x64, .i1⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S64x64, .f32⟩
  | .hbm, ⟨75, _⟩ => ⟨S100000x64, .f32⟩
  | .hbm, ⟨76, _⟩ => ⟨S1x64, .f32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S100000x64, .i1⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S64x32, .f32⟩
  | .hbm, ⟨94, _⟩ => ⟨S100000x32, .f32⟩
  | .hbm, ⟨95, _⟩ => ⟨S1x32, .f32⟩
  | .hbm, ⟨96, _⟩ => ⟨S100000x32, .f32⟩
  | .hbm, ⟨97, _⟩ => ⟨S100000x32, .f32⟩
  | .hbm, ⟨98, _⟩ => ⟨S100000x32, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S100000x64, .f32⟩
  | .hbm, ⟨103, _⟩ => ⟨S100000x64, .f32⟩
  | .hbm, ⟨104, _⟩ => ⟨S100000x32, .f32⟩
  | .hbm, ⟨105, _⟩ => ⟨S100000x32, .f32⟩
  | .hbm, ⟨106, _⟩ => ⟨S100000x32, .f32⟩
  | .hbm, ⟨107, _⟩ => ⟨S100000x32, .f32⟩
  | .hbm, ⟨108, _⟩ => ⟨S_, .f32⟩
  | .hbm, ⟨109, _⟩ => ⟨S100000, .f32⟩
  | .hbm, ⟨110, _⟩ => ⟨S100000x1, .f32⟩
  | .hbm, ⟨111, _⟩ => ⟨S100000x32, .f32⟩
  | .hbm, ⟨112, _⟩ => ⟨S_, .f32⟩
  | .hbm, ⟨113, _⟩ => ⟨S100000, .f32⟩
  | .hbm, ⟨114, _⟩ => ⟨S100000x1, .f32⟩
  | .hbm, ⟨115, _⟩ => ⟨S100000x1, .f32⟩
  | .hbm, ⟨116, _⟩ => ⟨S100000x32, .f32⟩
  | .hbm, ⟨117, _⟩ => ⟨S100000x32, .f32⟩
  | .hbm, ⟨118, _⟩ => ⟨S100000x32, .f32⟩
  | .hbm, ⟨119, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_call3_cst : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_6 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_7 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  concatenates_S100000x32_S100000x32_S100000x64_d1 : Shape.Concatenates [S100000x32, S100000x32] S100000x64 1
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S100000x64_S100000x32_0_0 : S100000x64.Slices ![0, 0] S100000x32
  slices_S100000x64_S100000x32_0_32 : S100000x64.Slices ![0, 32] S100000x32
  reducesTo_S100000x32_S100000_d1 : S100000x32.ReducesTo [1] S100000
  h_S_ : 0 < S_.numel
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x64_S64x32_S100000x32_1_0_0_1_n_n_wf : DotDims.WF S100000x64 S64x32 S100000x32 [1] [0] [0] [1] [] []
  dot_S100000x64_S64x64_S100000x64_1_0_0_1_n_n_wf : DotDims.WF S100000x64 S64x64 S100000x64 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NodeSpec.lean ====
/-
  One node's drift, on the extended reals.

  A node has a state `u` of 64 coordinates and an input row `cat` of 64 (its intensity beside its neighbours' mean
  intensity). With `F u = W_f u + b_f`, `G u = W_g u + b_g`, `Z u = W_z u + b_z` and `A cat = W_A cat + b_A`, the drift is
  `du = -softplus(F u) · u + softplus(G u) · [tanh(Z u) ; max(A cat, 0)]`, coordinate by coordinate, and the result takes
  out of the first 32 coordinates of `du` its component along the first 32 coordinates of `u`:
  `du_p - (⟨du_p, u_p⟩ / ⟨u_p, u_p⟩) · u_p`, leaving the last 32 as they are.

  The two programs differ in how they write three scalar steps, and the laws here join them: softplus' guard
  (`x ≠ x`, never true on the extended reals) and its `0 - |x|` against `-|x|`; and the neighbour mean, a product
  with `1 / max(d, 1)` on one side and a quotient by `max(d, 1)` on the other — equal because `max(d, 1)` is never
  zero, and dividing by a nonzero extended real is multiplying by its inverse, infinities included.
-/
import Idealize.ShloMosaic.PureOps.Ideal
import Idealize.ShloMosaic.PureOps.Ideal.Laws
import Idealize.ShloMosaic.Lib.ValueIdx
import Idealize.ShloMosaic.Lib.IdealHost

namespace Cert.NodeDrift

open Idealize.ShloMosaic

/-- Softplus as both programs compute it: `max(s, 0) + log(1 + exp(-|s|))`, with `|s| = max(s, -s)`. -/
noncomputable def softplus (s : EReal) : EReal := max s 0 + Ideal.log1p (Ideal.exp (-(max s (-s))))

/-- A row against a row of weights, plus a bias. -/
noncomputable def affine (x w : Fin 64 → EReal) (b : EReal) : EReal := (∑ k : Fin 64, x k * w k) + b

/-- The mean of a node's neighbours from their sum `s` and the node's degree `d`: zero for an isolated node. -/
noncomputable def nbrMean (s d : EReal) : EReal := if 0 < d then Ideal.div s (max d 1) else 0

/-- Two rows of 32 side by side. -/
def join {α : Type} (a b : Fin 32 → α) (k : Fin 64) : α :=
  if h : k.val < 32 then a ⟨k.val, h⟩ else b ⟨k.val - 32, by omega⟩

/-- A coordinate of the first half among all 64. -/
def lo (p : Fin 32) : Fin 64 := ⟨p.val, by omega⟩

/-- A coordinate of the second half among all 64. -/
def hi (q : Fin 32) : Fin 64 := ⟨32 + q.val, by omega⟩

/-- The drift before the projection, at coordinate `j`. -/
noncomputable def drift (u f g zc : Fin 64 → EReal) (j : Fin 64) : EReal := -(softplus (f j)) * u j + softplus (g j) * zc j

/-- The projection: the first 32 coordinates of `du` less their component along the first 32 of `u`, beside the last 32
    coordinates of `du`. -/
noncomputable def project (u du : Fin 64 → EReal) : Fin 64 → EReal :=
  join (fun p => du (lo p) - Ideal.div (∑ p' : Fin 32, du (lo p') * u (lo p')) (∑ p' : Fin 32, u (lo p') * u (lo p')) * u (lo p))
    (fun q => du (hi q))

/-- One node's result from its state, its input row and the weights (row `j` of `Wf` is output coordinate `j`'s). -/
noncomputable def node (u cat : Fin 64 → EReal) (Wf Wg : Fin 64 → Fin 64 → EReal) (bf bg : Fin 64 → EReal)
    (Wz WA : Fin 32 → Fin 64 → EReal) (bz bA : Fin 32 → EReal) : Fin 64 → EReal :=
  project u (drift u (fun j => affine u (Wf j) (bf j)) (fun j => affine u (Wg j) (bg j))
    (join (fun p => Ideal.tanh (affine u (Wz p) (bz p))) (fun q => max (affine cat (WA q) (bA q)) 0)))

/-! ## The scalar laws -/

/-- A selection on a decided proposition's bit is the `if`. -/
theorem select_ofBool {α : Type} (P : Prop) [Decidable P] (a b : α) :
    Scalar.select (BitVec.ofBool (decide P)) a b = if P then a else b := by
  by_cases h : P
  · simp [h, ValueIdx.select_one]
  · simp [h, ValueIdx.select_zero]

/-- Softplus with the guard "`s - 0` differs from itself" (ordered spelling) and `0 - |s - 0|`. -/
theorem softplus_guard_one (s : EReal) :
    Scalar.select (Ideal.cmp .one (s - 0) (s - 0)) (s + 0)
      (max s 0 + Ideal.log1p (Ideal.exp (0 - max (s - 0) (-(s - 0))))) = softplus s := by
  unfold Ideal.cmp softplus
  rw [select_ofBool, if_neg (fun h => h rfl), sub_zero, zero_sub]

/-- Softplus with the guard "`s - 0` differs from itself" (unordered spelling) and `-|s - 0|`. -/
theorem softplus_guard_une (s : EReal) :
    Scalar.select (Ideal.cmp .une (s - 0) (s - 0)) (s + 0)
      (max s 0 + Ideal.log1p (Ideal.exp (-(max (s - 0) (-(s - 0)))))) = softplus s := by
  unfold Ideal.cmp softplus
  rw [select_ofBool, if_neg (fun h => h rfl), sub_zero]

/-- `max(d, 1)` is not zero. -/
theorem max_one_ne_zero (d : EReal) : max d 1 ≠ 0 :=
  ne_of_gt (lt_of_lt_of_le zero_lt_one (le_max_right d 1))

/-- The quotient of the sum by `max(d, 1)` where `0 < d`, zero elsewhere, is the neighbour mean. -/
theorem nbrMean_quotient (s d : EReal) :
    Scalar.select (Ideal.cmp .ogt d 0) (Ideal.div s (max d 1)) 0 = nbrMean s d := by
  unfold Ideal.cmp nbrMean
  rw [select_ofBool]

/-- The sum times (`1 / max(d, 1)` where `0 < d`, zero elsewhere) is the neighbour mean: `max(d, 1)` is not zero, so both
    the quotient and the reciprocal are products with its inverse, and a product with zero is zero. -/
theorem nbrMean_product (s d : EReal) :
    s * Scalar.select (Ideal.cmp .ogt d 0) (Ideal.div 1 (max d 1)) 0 = nbrMean s d := by
  unfold Ideal.cmp nbrMean
  rw [select_ofBool]
  by_cases h : 0 < d
  · rw [if_pos h, if_pos h, Ideal.div, Ideal.div, if_neg (max_one_ne_zero d), if_neg (max_one_ne_zero d), one_mul]
  · rw [if_neg h, if_neg h, mul_zero]

end Cert.NodeDrift
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.JoinRows.lean ====
/-
  Two matrices of 32 columns set side by side, read at a row: the two rows of 32 side by side.
-/
import proofs.«151539_j83915071029947_2_alg».proof.Proof.NodeSpec
import proofs.«151539_j83915071029947_2_alg».proof.Proof.LibRowLayout

namespace Cert.NodeDrift

open Idealize.ShloMosaic Idealize.ShloMosaic.ValueIdx

/-- A `[n, 32]` matrix beside another, at row `r` and column `k` of the 64: the left row at `k` below 32, the right
    row at `k - 32` from there on. -/
theorem concat_cols_join {α : Type} {n : Nat} (x₁ x₂ : (⟨2, ![n, 32]⟩ : Shape).Idx → α)
    (h : Shape.Concatenates [(⟨2, ![n, 32]⟩ : Shape), ⟨2, ![n, 32]⟩] ⟨2, ![n, 64]⟩ 1) (r : Fin n) (k : Fin 64) :
    concatenate ⟨2, ![n, 64]⟩ 1 [⟨⟨2, ![n, 32]⟩, x₁⟩, ⟨⟨2, ![n, 32]⟩, x₂⟩] h (ix2 r k)
      = join (fun p => x₁ (ix2 r p)) (fun q => x₂ (ix2 r q)) k := by
  unfold join
  by_cases hk : k.val < 32
  · rw [dif_pos hk]
    exact RowLayout.concat_cols_left x₁ x₂ h r k ⟨k.val, hk⟩ rfl
  · rw [dif_neg hk]
    exact RowLayout.concat_cols_right x₁ x₂ h r k ⟨k.val - 32, by omega⟩ (by show k.val - 32 + 32 = k.val; omega)

end Cert.NodeDrift
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«151539_j83915071029947_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.KernelRow.lean ====
/-
  What the kernel's body writes for one node, read at a row `r` of the block and a coordinate `j` of the 64.

  The body works on a block of 5000 nodes at a time, but every operation in it acts row by row: the three matrix
  products contract a node's own row against the weights, the sums run along a node's own row, and everything else is
  pointwise or a re-arrangement of columns. So the stored value at `(r, j)` is the node function of NodeSpec at row `r`
  of the loaded blocks, with the packed weight matrix `[Wfᵀ | Wgᵀ]` read at column `j` for `F` and column `64 + j` for `G`.
-/
import proofs.«151539_j83915071029947_2_alg».proof.Proof.Gen.KernelIdeal.Skeleton
import proofs.«151539_j83915071029947_2_alg».proof.Proof.JoinRows
import proofs.«151539_j83915071029947_2_alg».proof.Proof.LibRowsCols
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.RowValue

open Cert.KernelIdeal Cert.KernelIdeal.Gen Idealize.ShloMosaic Idealize.ShloMosaic.ValueIdx Cert.NodeDrift

variable {α : Type}

/-- Column `j` of the `F` half of the packed 128 columns. -/
def lo128 (j : Fin 64) : Fin 128 := ⟨j.val, by omega⟩
/-- Column `j` of the `G` half of the packed 128 columns. -/
def hi128 (j : Fin 64) : Fin 128 := ⟨64 + j.val, by omega⟩

/-! ## The re-arrangements of columns and rows, at `(r, c)` -/

theorem slice128_lo (x : S5000x128.Idx → α) (h : S5000x128.Slices ![0, 0] S5000x64) (r : Fin 5000) (j : Fin 64) :
    extractStridedSlice S5000x64 ![0, 0] x h (ix2 r j) = x (ix2 r (lo128 j)) :=
  slice2_axis1_apply 0 x h r j (lo128 j) (by show j.val = 0 + j.val; omega)

theorem slice128_hi (x : S5000x128.Idx → α) (h : S5000x128.Slices ![0, 64] S5000x64) (r : Fin 5000) (j : Fin 64) :
    extractStridedSlice S5000x64 ![0, 64] x h (ix2 r j) = x (ix2 r (hi128 j)) :=
  slice2_axis1_apply 64 x h r j (hi128 j) rfl

theorem slice64_lo (x : S5000x64.Idx → α) (h : S5000x64.Slices ![0, 0] S5000x32) (r : Fin 5000) (p : Fin 32) :
    extractStridedSlice S5000x32 ![0, 0] x h (ix2 r p) = x (ix2 r (lo p)) :=
  slice2_axis1_apply 0 x h r p (lo p) (by show p.val = 0 + p.val; omega)

theorem slice64_hi (x : S5000x64.Idx → α) (h : S5000x64.Slices ![0, 32] S5000x32) (r : Fin 5000) (p : Fin 32) :
    extractStridedSlice S5000x32 ![0, 32] x h (ix2 r p) = x (ix2 r (hi p)) :=
  slice2_axis1_apply 32 x h r p (hi p) rfl

theorem concat64 (x₁ x₂ : S5000x32.Idx → α) (h : Shape.Concatenates [S5000x32, S5000x32] S5000x64 1) (r : Fin 5000) (k : Fin 64) :
    concatenate S5000x64 1 [⟨S5000x32, x₁⟩, ⟨S5000x32, x₂⟩] h (ix2 r k) = join (fun p => x₁ (ix2 r p)) (fun q => x₂ (ix2 r q)) k :=
  concat_cols_join x₁ x₂ h r k

theorem bcol32 (x : S5000x1.Idx → α) (h : S5000x1.Broadcasts S5000x32) (r : Fin 5000) (c : Fin 32) :
    broadcastTo S5000x32 x h (ix2 r c) = x (ix2 r (0 : Fin 1)) :=
  RowLayout.broadcastTo_a1_ab_apply x h r c

theorem brow32 (x : S1x32.Idx → α) (h : S1x32.Broadcasts S5000x32) (r : Fin 5000) (c : Fin 32) :
    broadcastTo S5000x32 x h (ix2 r c) = x (ix2 (0 : Fin 1) c) :=
  broadcastTo_1b_ab_apply x h r c

theorem brow128 (x : S1x128.Idx → α) (h : S1x128.Broadcasts S5000x128) (r : Fin 5000) (c : Fin 128) :
    broadcastTo S5000x128 x h (ix2 r c) = x (ix2 (0 : Fin 1) c) :=
  broadcastTo_1b_ab_apply x h r c

theorem keep1 (x : S5000.Idx → α) (h : S5000.ShapeCasts S5000x1) (r : Fin 5000) (u : Fin 1) :
    shapeCast S5000x1 x h (ix2 r u) = x (ix1 r) :=
  RowLayout.shapeCast_a_a1_apply x h r u

/-- A row's sum over its 32 columns. -/
theorem rowsum32 (x : FVec Ideal S5000x32 .f32) (h : S5000x32.Reduces [1] S5000) (hφ : FKind.Formats .f32)
    (hacc : (0x00000000#32 : BitVec 32) = 0x00000000#32) (r : Fin 5000) :
    multiReduction .add [1] S5000 x 0x00000000#32 h hφ hacc (ix1 r) = ∑ p : Fin 32, x (ix2 r p) := by
  refine (Ideal.multiReduction_add_single x 0x00000000#32 h hφ hacc (ix1 r)).trans ?_
  exact Finset.sum_congr rfl fun p _ => congrArg x (funext fun a => Fin.ext (by match a with | ⟨0, _⟩ => rfl | ⟨1, _⟩ => rfl))

/-! ## The two matrix products, at `(r, c)` -/

theorem prod32_l0 (j : S5000x32.Idx) (q : dot_S5000x64_S64x32_S5000x32_1_0_0_1_n_n.contr.Idx) :
    (dot_S5000x64_S64x32_S5000x32_1_0_0_1_n_n.lhsIdx j q 0).val = (j 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem prod32_r1 (j : S5000x32.Idx) (q : dot_S5000x64_S64x32_S5000x32_1_0_0_1_n_n.contr.Idx) :
    (dot_S5000x64_S64x32_S5000x32_1_0_0_1_n_n.rhsIdx j q 1).val = (j 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

theorem prod128_l0 (j : S5000x128.Idx) (q : dot_S5000x64_S64x128_S5000x128_1_0_0_1_n_n.contr.Idx) :
    (dot_S5000x64_S64x128_S5000x128_1_0_0_1_n_n.lhsIdx j q 0).val = (j 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem prod128_r1 (j : S5000x128.Idx) (q : dot_S5000x64_S64x128_S5000x128_1_0_0_1_n_n.contr.Idx) :
    (dot_S5000x64_S64x128_S5000x128_1_0_0_1_n_n.rhsIdx j q 1).val = (j 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem prod32_apply (lhs : FVec Ideal S5000x64 .bf16) (rhs : FVec Ideal S64x32 .bf16) (r : Fin 5000) (q : Fin 32) :
    matmul dot_S5000x64_S64x32_S5000x32_1_0_0_1_n_n none lhs rhs (constant S5000x32 .f32 0x00000000#32) (ix2 r q) = ∑ k : Fin 64, lhs (ix2 r k) * rhs (ix2 k q) :=
  RowsCols.matmul_zero_apply dot_S5000x64_S64x32_S5000x32_1_0_0_1_n_n rfl rfl rfl rfl prod32_l0 prod32_r1 none lhs rhs r q

theorem prod128_apply (lhs : FVec Ideal S5000x64 .bf16) (rhs : FVec Ideal S64x128 .bf16) (r : Fin 5000) (c : Fin 128) :
    matmul dot_S5000x64_S64x128_S5000x128_1_0_0_1_n_n none lhs rhs (constant S5000x128 .f32 0x00000000#32) (ix2 r c) = ∑ k : Fin 64, lhs (ix2 r k) * rhs (ix2 k c) :=
  RowsCols.matmul_zero_apply dot_S5000x64_S64x128_S5000x128_1_0_0_1_n_n rfl rfl rfl rfl prod128_l0 prod128_r1 none lhs rhs r c

/-! ## Pointwise operations the library has no index lemma for -/

theorem tanh_apply {s : Shape} {φ : FTy} (a : FVec Ideal s φ) (i : s.Idx) : tanh a i = Ideal.tanh (a i) := rfl
theorem log1p_apply {s : Shape} {φ : FTy} (a : FVec Ideal s φ) (i : s.Idx) : log1p a i = Ideal.log1p (a i) := rfl
theorem exp_apply {s : Shape} {φ : FTy} (a : FVec Ideal s φ) (i : s.Idx) : exp a i = Ideal.exp (a i) := rfl
theorem absf_apply {s : Shape} {φ : FTy} (a : FVec Ideal s φ) (i : s.Idx) : absf a i = max (a i) (-(a i)) := rfl
theorem zero_word : (Scalar.ofBits .f32 0x00000000#32 : Ideal .f32) = (0 : EReal) := Ideal.ofBits_zero_f32

/-! ## The packed affine map `u · [Wfᵀ | Wgᵀ] + [bf | bg]` and what is computed from it -/

theorem pay4_apply (v0 : FVec Ideal S5000x64 .f32) (v20 : FVec Ideal S64x128 .bf16) (v22 : FVec Ideal S1x128 .f32)
    (r : Fin 5000) (c : Fin 128) :
    k0_pay4 (F := Ideal) v0 v20 v22 (ix2 r c) = affine (fun k => v0 (ix2 r k)) (fun k => v20 (ix2 k c)) (v22 (ix2 (0 : Fin 1) c)) := by
  unfold k0_pay4 k0_pay2 affine
  simp only [addf_apply, prod128_apply, brow128, shapeCast_self, truncf_apply]

/-- The guarded softplus of the packed affine map, from the five values the body computes from it. -/
theorem softplus_packed (v0 : FVec Ideal S5000x64 .f32) (v20 : FVec Ideal S64x128 .bf16) (v22 : FVec Ideal S1x128 .f32)
    (r : Fin 5000) (c : Fin 128) :
    Scalar.select (k0_pay7 (F := Ideal) v0 v20 v22 (ix2 r c)) (k0_pay8 (F := Ideal) v0 v20 v22 (ix2 r c))
        (k0_pay5 (F := Ideal) v0 v20 v22 (ix2 r c) + Ideal.log1p (k0_pay9 (F := Ideal) v0 v20 v22 (ix2 r c)))
      = softplus (k0_pay4 (F := Ideal) v0 v20 v22 (ix2 r c)) := by
  unfold k0_pay7 k0_pay8 k0_pay5 k0_pay9 k0_pay6
  simp only [cmpf_apply, Ideal.cmpf_def, addf_apply, subf_apply, maximumf_apply, exp_apply, absf_apply, broadcast_apply, zero_word]
  exact softplus_guard_one _

/-! ## The rectified affine map of the intensity beside the scaled neighbour sum -/

theorem pay3_apply (v1 v2 : FVec Ideal S5000x32 .f32) (v4 : FVec Ideal S5000x1 .f32) (v11 : FVec Ideal S64x32 .bf16)
    (v13 : FVec Ideal S1x32 .f32) (r : Fin 5000) (q : Fin 32) :
    k0_pay3 (F := Ideal) v1 v2 v4 v11 v13 (ix2 r q)
      = max (affine (join (fun p => v1 (ix2 r p)) (fun p => v2 (ix2 r p) * v4 (ix2 r (0 : Fin 1))))
          (fun k => v11 (ix2 k q)) (v13 (ix2 (0 : Fin 1) q))) 0 := by
  unfold k0_pay3 affine
  simp only [maximumf_apply, addf_apply, prod32_apply, brow32, shapeCast_self, truncf_apply, concat64, mulf_apply, bcol32,
    broadcast_apply, zero_word]

/-! ## The stored value over the values computed before it -/

theorem pay1_apply (v0 : FVec Ideal S5000x64 .f32) (v8 : FVec Ideal S5000x64 .bf16) (v19 : FVec Ideal S5000x32 .f32)
    (v28 : FVec Ideal S5000x128 .f32) (v31 : IVec S5000x128 1) (v33 v37 : FVec Ideal S5000x128 .f32)
    (v43 : FVec Ideal S64x32 .bf16) (v45 : FVec Ideal S1x32 .f32) (r : Fin 5000) (j : Fin 64) :
    k0_pay1 (F := Ideal) v0 v8 v19 v28 v31 v33 v37 v43 v45 (ix2 r j)
      = project (fun k => v0 (ix2 r k))
          (fun j' =>
            (0 - Scalar.select (v31 (ix2 r (lo128 j'))) (v33 (ix2 r (lo128 j')))
                  (v28 (ix2 r (lo128 j')) + Ideal.log1p (v37 (ix2 r (lo128 j'))))) * v0 (ix2 r j')
            + Scalar.select (v31 (ix2 r (hi128 j'))) (v33 (ix2 r (hi128 j')))
                  (v28 (ix2 r (hi128 j')) + Ideal.log1p (v37 (ix2 r (hi128 j'))))
              * join (fun p => Ideal.tanh (affine (fun k => v8 (ix2 r k)) (fun k => v43 (ix2 k p)) (v45 (ix2 (0 : Fin 1) p))))
                  (fun q => v19 (ix2 r q)) j') j := by
  unfold k0_pay1 project affine
  simp only [concat64, subf_apply, mulf_apply, addf_apply, divf_apply, slice64_lo, slice64_hi, slice128_lo, slice128_hi, bcol32,
    brow32, keep1, select_apply, broadcast_apply, prod32_apply, shapeCast_self, tanh_apply, log1p_apply, zero_word]
  rw [rowsum32, rowsum32]
  simp only [concat64, subf_apply, mulf_apply, addf_apply, slice64_lo, slice128_lo, slice128_hi, brow32, select_apply,
    broadcast_apply, prod32_apply, shapeCast_self, tanh_apply, log1p_apply, zero_word]

/-! ## The stored value at `(r, j)` is the node function at row `r` of the loaded blocks -/

theorem block_row (x0 : FVec Ideal S5000x64 .f32) (x1 x2 : FVec Ideal S5000x32 .f32) (x3 : FVec Ideal S5000x1 .f32)
    (x4 : FVec Ideal S64x128 .bf16) (x5 : FVec Ideal S1x128 .f32) (x6 : FVec Ideal S64x32 .bf16) (x7 : FVec Ideal S1x32 .f32)
    (x8 : FVec Ideal S64x32 .bf16) (x9 : FVec Ideal S1x32 .f32) (r : Fin 5000) (j : Fin 64) :
    k0_pay1 (F := Ideal) x0 (k0_pay2 (F := Ideal) x0) (k0_pay3 (F := Ideal) x1 x2 x3 x8 x9) (k0_pay5 (F := Ideal) x0 x4 x5)
        (k0_pay7 (F := Ideal) x0 x4 x5) (k0_pay8 (F := Ideal) x0 x4 x5) (k0_pay9 (F := Ideal) x0 x4 x5) x6 x7
        (ix2 r j)
      = node (fun k => x0 (ix2 r k)) (join (fun p => x1 (ix2 r p)) (fun q => x2 (ix2 r q) * x3 (ix2 r (0 : Fin 1))))
          (fun j k => x4 (ix2 k (lo128 j))) (fun j k => x4 (ix2 k (hi128 j)))
          (fun j => x5 (ix2 (0 : Fin 1) (lo128 j))) (fun j => x5 (ix2 (0 : Fin 1) (hi128 j)))
          (fun p k => x6 (ix2 k p)) (fun q k => x8 (ix2 k q))
          (fun p => x7 (ix2 (0 : Fin 1) p)) (fun q => x9 (ix2 (0 : Fin 1) q)) j := by
  rw [pay1_apply]
  simp only [softplus_packed, pay4_apply, pay3_apply]
  unfold node drift k0_pay2
  simp only [zero_sub, truncf_apply]

end Cert.KernelIdeal.RowValue

end
-- ==== Proof.KernelArray.lean ====
/-
  The kernel's result array, all 100000 rows of it.

  Grid point `t` of 20 works on rows `5000 t … 5000 t + 4999`: it fetches those rows of the state, the intensity, the
  neighbour sum and the reciprocal degree, and the whole of each weight matrix and bias, and writes those rows of the
  result. Every row's value is the node function of its own row of the four row-wise arrays (KernelRow), so the blocks
  are the restrictions of ONE function of the ten window arrays, and the twenty blocks cover the array.
-/
import proofs.«151539_j83915071029947_2_alg».proof.Proof.Gen.KernelIdeal.Value
import proofs.«151539_j83915071029947_2_alg».proof.Proof.KernelRow
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.NodeDrift Cert.KernelIdeal.RowValue
open Idealize.ShloMosaic.Pipeline (Dat)

variable (m : (ℓ : Loc nD τ sig) → Buf (Elt Ideal) ℓ) (ρ : Dev nD → PrngReg)

/-- Row `n`, coordinate `j` of the result, from the ten arrays the region's windows stage: the state, the intensity, the
    neighbour sum, the reciprocal degree (a column), the packed weights `[Wfᵀ | Wgᵀ]` and biases `[bf | bg]`, `Wzᵀ`, `bz`,
    `W_Aᵀ`, `b_A`. -/
def nodeAt (A0 : S100000x64.Idx → EReal) (A1 A2 : S100000x32.Idx → EReal) (A3 : S100000x1.Idx → EReal)
    (A4 : S64x128.Idx → EReal) (A5 : S1x128.Idx → EReal) (A6 : S64x32.Idx → EReal) (A7 : S1x32.Idx → EReal)
    (A8 : S64x32.Idx → EReal) (A9 : S1x32.Idx → EReal) (n : Fin 100000) (j : Fin 64) : EReal :=
  node (fun k => A0 (ix2 n k)) (join (fun p => A1 (ix2 n p)) (fun q => A2 (ix2 n q) * A3 (ix2 n (0 : Fin 1))))
    (fun j k => A4 (ix2 k (lo128 j))) (fun j k => A4 (ix2 k (hi128 j)))
    (fun j => A5 (ix2 (0 : Fin 1) (lo128 j))) (fun j => A5 (ix2 (0 : Fin 1) (hi128 j)))
    (fun p k => A6 (ix2 k p)) (fun q k => A8 (ix2 k q))
    (fun p => A7 (ix2 (0 : Fin 1) p)) (fun q => A9 (ix2 (0 : Fin 1) q)) j

/-- The whole result array as one function of the ten window arrays. -/
def nodes (A0 : S100000x64.Idx → EReal) (A1 A2 : S100000x32.Idx → EReal) (A3 : S100000x1.Idx → EReal)
    (A4 : S64x128.Idx → EReal) (A5 : S1x128.Idx → EReal) (A6 : S64x32.Idx → EReal) (A7 : S1x32.Idx → EReal)
    (A8 : S64x32.Idx → EReal) (A9 : S1x32.Idx → EReal) : S100000x64.Idx → EReal :=
  fun i => nodeAt A0 A1 A2 A3 A4 A5 A6 A7 A8 A9 ⟨(i 0).val, idx2_lt0 i⟩ ⟨(i 1).val, idx2_lt1 i⟩

theorem hz : (![0, 0] : Fin 2 → Nat) = fun _ => 0 := funext fun a => by fin_cases a <;> rfl

/-- The printed index maps, decided over the 20 points: the four row-wise inputs and the output move one block of rows
    per point; the weights and biases stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = t.val ∧ win0_10.index t (1 : Fin 2) = 0) :=
  (by decide +kernel : ∀ t : Fin grid0.N, _)

/-- Window 0's block at point `t`, read off ANY array of its shape, is rows `5000 t … 5000 t + 4999` of that array. -/
theorem blk0_read (A : S100000x64.Idx → EReal) (t : Fin cfg0.N) (x : S5000x64.Idx) (k : S100000x64.Idx)
    (hk0 : (k 0).val = 5000 * t.val + (x 0).val) (hk1 : (k 1).val = (x 1).val) :
    (((cfg0.win 0).blk t).view.read (Elt Ideal) A : FVec Ideal S5000x64 .f32) x = A k := by
  have hi := (idx_facts t).1
  rw [View.read_apply]
  refine congrArg A (funext fun a => Fin.ext ?_)
  match a with
  | ⟨0, _⟩ => show win0_0.index t 0 * 5000 + 1 * (x 0).val = (k 0).val; rw [hi.1, hk0]; omega
  | ⟨1, _⟩ => show win0_0.index t 1 * 64 + 1 * (x 1).val = (k 1).val; rw [hi.2, hk1]; omega

/-- Input window 0's block at point `t` is rows `5000 t … 5000 t + 4999` of its array. -/
theorem iblk0_apply (c : Dev nD) (t : Fin cfg0.N) (x : S5000x64.Idx) (k : S100000x64.Idx)
    (hk0 : (k 0).val = 5000 * t.val + (x 0).val) (hk1 : (k 1).val = (x 1).val) :
    (iblk m c 0 t : FVec Ideal S5000x64 .f32) x = (V m c main_arg0 : S100000x64.Idx → EReal) k :=
  blk0_read (V m c main_arg0) t x k hk0 hk1

/-- Window 1's block at point `t`, read off ANY array of its shape, is rows `5000 t … 5000 t + 4999` of that array. -/
theorem blk1_read (A : S100000x32.Idx → EReal) (t : Fin cfg0.N) (x : S5000x32.Idx) (k : S100000x32.Idx)
    (hk0 : (k 0).val = 5000 * t.val + (x 0).val) (hk1 : (k 1).val = (x 1).val) :
    (((cfg0.win 1).blk t).view.read (Elt Ideal) A : FVec Ideal S5000x32 .f32) x = A k := by
  have hi := (idx_facts t).2.1
  rw [View.read_apply]
  refine congrArg A (funext fun a => Fin.ext ?_)
  match a with
  | ⟨0, _⟩ => show win0_1.index t 0 * 5000 + 1 * (x 0).val = (k 0).val; rw [hi.1, hk0]; omega
  | ⟨1, _⟩ => show win0_1.index t 1 * 32 + 1 * (x 1).val = (k 1).val; rw [hi.2, hk1]; omega

/-- Input window 1's block at point `t` is rows `5000 t … 5000 t + 4999` of its array. -/
theorem iblk1_apply (c : Dev nD) (t : Fin cfg0.N) (x : S5000x32.Idx) (k : S100000x32.Idx)
    (hk0 : (k 0).val = 5000 * t.val + (x 0).val) (hk1 : (k 1).val = (x 1).val) :
    (iblk m c 1 t : FVec Ideal S5000x32 .f32) x = (V m c main_arg1 : S100000x32.Idx → EReal) k :=
  blk1_read (V m c main_arg1) t x k hk0 hk1

/-- Window 2's block at point `t`, read off ANY array of its shape, is rows `5000 t … 5000 t + 4999` of that array. -/
theorem blk2_read (A : S100000x32.Idx → EReal) (t : Fin cfg0.N) (x : S5000x32.Idx) (k : S100000x32.Idx)
    (hk0 : (k 0).val = 5000 * t.val + (x 0).val) (hk1 : (k 1).val = (x 1).val) :
    (((cfg0.win 2).blk t).view.read (Elt Ideal) A : FVec Ideal S5000x32 .f32) x = A k := by
  have hi := (idx_facts t).2.2.1
  rw [View.read_apply]
  refine congrArg A (funext fun a => Fin.ext ?_)
  match a with
  | ⟨0, _⟩ => show win0_2.index t 0 * 5000 + 1 * (x 0).val = (k 0).val; rw [hi.1, hk0]; omega
  | ⟨1, _⟩ => show win0_2.index t 1 * 32 + 1 * (x 1).val = (k 1).val; rw [hi.2, hk1]; omega

/-- Input window 2's block at point `t` is rows `5000 t … 5000 t + 4999` of its array. -/
theorem iblk2_apply (c : Dev nD) (t : Fin cfg0.N) (x : S5000x32.Idx) (k : S100000x32.Idx)
    (hk0 : (k 0).val = 5000 * t.val + (x 0).val) (hk1 : (k 1).val = (x 1).val) :
    (iblk m c 2 t : FVec Ideal S5000x32 .f32) x = (V m c main_v9 : S100000x32.Idx → EReal) k :=
  blk2_read (V m c main_v9) t x k hk0 hk1

/-- Window 3's block at point `t`, read off ANY array of its shape, is rows `5000 t … 5000 t + 4999` of that array. -/
theorem blk3_read (A : S100000x1.Idx → EReal) (t : Fin cfg0.N) (x : S5000x1.Idx) (k : S100000x1.Idx)
    (hk0 : (k 0).val = 5000 * t.val + (x 0).val) (hk1 : (k 1).val = (x 1).val) :
    (((cfg0.win 3).blk t).view.read (Elt Ideal) A : FVec Ideal S5000x1 .f32) x = A k := by
  have hi := (idx_facts t).2.2.2.1
  rw [View.read_apply]
  refine congrArg A (funext fun a => Fin.ext ?_)
  match a with
  | ⟨0, _⟩ => show win0_3.index t 0 * 5000 + 1 * (x 0).val = (k 0).val; rw [hi.1, hk0]; omega
  | ⟨1, _⟩ => show win0_3.index t 1 * 1 + 1 * (x 1).val = (k 1).val; rw [hi.2, hk1]; omega

/-- Input window 3's block at point `t` is rows `5000 t … 5000 t + 4999` of its array. -/
theorem iblk3_apply (c : Dev nD) (t : Fin cfg0.N) (x : S5000x1.Idx) (k : S100000x1.Idx)
    (hk0 : (k 0).val = 5000 * t.val + (x 0).val) (hk1 : (k 1).val = (x 1).val) :
    (iblk m c 3 t : FVec Ideal S5000x1 .f32) x = (V m c main_v21 : S100000x1.Idx → EReal) k :=
  blk3_read (V m c main_v21) t x k hk0 hk1

/-- Window 4's block, read off ANY array of its shape, is the whole array at every point. -/
theorem blk4_read (A : S64x128.Idx → EReal) (t : Fin cfg0.N) (x : S64x128.Idx) :
    (((cfg0.win 4).blk t).view.read (Elt Ideal) A : FVec Ideal S64x128 .bf16) x = A x := by
  have hi := (idx_facts t).2.2.2.2.1
  rw [View.read_apply]
  refine congrArg A (funext fun a => Fin.ext ?_)
  match a with
  | ⟨0, _⟩ => show win0_4.index t 0 * 64 + 1 * (x 0).val = (x 0).val; rw [hi.1]; omega
  | ⟨1, _⟩ => show win0_4.index t 1 * 128 + 1 * (x 1).val = (x 1).val; rw [hi.2]; omega

/-- Input window 4's block is its whole array at every point. -/
theorem iblk4_apply (c : Dev nD) (t : Fin cfg0.N) (x : S64x128.Idx) :
    (iblk m c 4 t : FVec Ideal S64x128 .bf16) x = (V m c main_v25 : S64x128.Idx → EReal) x :=
  blk4_read (V m c main_v25) t x

/-- Window 5's block, read off ANY array of its shape, is the whole array at every point. -/
theorem blk5_read (A : S1x128.Idx → EReal) (t : Fin cfg0.N) (x : S1x128.Idx) :
    (((cfg0.win 5).blk t).view.read (Elt Ideal) A : FVec Ideal S1x128 .f32) x = A x := by
  have hi := (idx_facts t).2.2.2.2.2.1
  rw [View.read_apply]
  refine congrArg A (funext fun a => Fin.ext ?_)
  match a with
  | ⟨0, _⟩ => show win0_5.index t 0 * 1 + 1 * (x 0).val = (x 0).val; rw [hi.1]; omega
  | ⟨1, _⟩ => show win0_5.index t 1 * 128 + 1 * (x 1).val = (x 1).val; rw [hi.2]; omega

/-- Input window 5's block is its whole array at every point. -/
theorem iblk5_apply (c : Dev nD) (t : Fin cfg0.N) (x : S1x128.Idx) :
    (iblk m c 5 t : FVec Ideal S1x128 .f32) x = (V m c main_v27 : S1x128.Idx → EReal) x :=
  blk5_read (V m c main_v27) t x

/-- Window 6's block, read off ANY array of its shape, is the whole array at every point. -/
theorem blk6_read (A : S64x32.Idx → EReal) (t : Fin cfg0.N) (x : S64x32.Idx) :
    (((cfg0.win 6).blk t).view.read (Elt Ideal) A : FVec Ideal S64x32 .bf16) x = A x := by
  have hi := (idx_facts t).2.2.2.2.2.2.1
  rw [View.read_apply]
  refine congrArg A (funext fun a => Fin.ext ?_)
  match a with
  | ⟨0, _⟩ => show win0_6.index t 0 * 64 + 1 * (x 0).val = (x 0).val; rw [hi.1]; omega
  | ⟨1, _⟩ => show win0_6.index t 1 * 32 + 1 * (x 1).val = (x 1).val; rw [hi.2]; omega

/-- Input window 6's block is its whole array at every point. -/
theorem iblk6_apply (c : Dev nD) (t : Fin cfg0.N) (x : S64x32.Idx) :
    (iblk m c 6 t : FVec Ideal S64x32 .bf16) x = (V m c main_v29 : S64x32.Idx → EReal) x :=
  blk6_read (V m c main_v29) t x

/-- Window 7's block, read off ANY array of its shape, is the whole array at every point. -/
theorem blk7_read (A : S1x32.Idx → EReal) (t : Fin cfg0.N) (x : S1x32.Idx) :
    (((cfg0.win 7).blk t).view.read (Elt Ideal) A : FVec Ideal S1x32 .f32) x = A x := by
  have hi := (idx_facts t).2.2.2.2.2.2.2.1
  rw [View.read_apply]
  refine congrArg A (funext fun a => Fin.ext ?_)
  match a with
  | ⟨0, _⟩ => show win0_7.index t 0 * 1 + 1 * (x 0).val = (x 0).val; rw [hi.1]; omega
  | ⟨1, _⟩ => show win0_7.index t 1 * 32 + 1 * (x 1).val = (x 1).val; rw [hi.2]; omega

/-- Input window 7's block is its whole array at every point. -/
theorem iblk7_apply (c : Dev nD) (t : Fin cfg0.N) (x : S1x32.Idx) :
    (iblk m c 7 t : FVec Ideal S1x32 .f32) x = (V m c main_v32 : S1x32.Idx → EReal) x :=
  blk7_read (V m c main_v32) t x

/-- Window 8's block, read off ANY array of its shape, is the whole array at every point. -/
theorem blk8_read (A : S64x32.Idx → EReal) (t : Fin cfg0.N) (x : S64x32.Idx) :
    (((cfg0.win 8).blk t).view.read (Elt Ideal) A : FVec Ideal S64x32 .bf16) x = A x := by
  have hi := (idx_facts t).2.2.2.2.2.2.2.2.1
  rw [View.read_apply]
  refine congrArg A (funext fun a => Fin.ext ?_)
  match a with
  | ⟨0, _⟩ => show win0_8.index t 0 * 64 + 1 * (x 0).val = (x 0).val; rw [hi.1]; omega
  | ⟨1, _⟩ => show win0_8.index t 1 * 32 + 1 * (x 1).val = (x 1).val; rw [hi.2]; omega

/-- Input window 8's block is its whole array at every point. -/
theorem iblk8_apply (c : Dev nD) (t : Fin cfg0.N) (x : S64x32.Idx) :
    (iblk m c 8 t : FVec Ideal S64x32 .bf16) x = (V m c main_v31 : S64x32.Idx → EReal) x :=
  blk8_read (V m c main_v31) t x

/-- Window 9's block, read off ANY array of its shape, is the whole array at every point. -/
theorem blk9_read (A : S1x32.Idx → EReal) (t : Fin cfg0.N) (x : S1x32.Idx) :
    (((cfg0.win 9).blk t).view.read (Elt Ideal) A : FVec Ideal S1x32 .f32) x = A x := by
  have hi := (idx_facts t).2.2.2.2.2.2.2.2.2.1
  rw [View.read_apply]
  refine congrArg A (funext fun a => Fin.ext ?_)
  match a with
  | ⟨0, _⟩ => show win0_9.index t 0 * 1 + 1 * (x 0).val = (x 0).val; rw [hi.1]; omega
  | ⟨1, _⟩ => show win0_9.index t 1 * 32 + 1 * (x 1).val = (x 1).val; rw [hi.2]; omega

/-- Input window 9's block is its whole array at every point. -/
theorem iblk9_apply (c : Dev nD) (t : Fin cfg0.N) (x : S1x32.Idx) :
    (iblk m c 9 t : FVec Ideal S1x32 .f32) x = (V m c main_v33 : S1x32.Idx → EReal) x :=
  blk9_read (V m c main_v33) t x

/-- What point `t` writes back is block `t` of `nodes` of the window arrays as the region finds them. -/
theorem flushed_eq (c : Dev nD) (t : Fin cfg0.N) :
    (dats m 0 c).flushed 10 t = ((cfg0.win 10).blk t).view.read (Elt Ideal) (nodes (V m c main_arg0) (V m c main_arg1) (V m c main_v9) (V m c main_v21) (V m c main_v25) (V m c main_v27) (V m c main_v29) (V m c main_v32) (V m c main_v31) (V m c main_v33)) := by
  rw [Value.flushed10]
  unfold out0_10
  rw [View.canon_unit_zero hz]
  simp only [View.ld_unit_zero (S := S5000x64) hz, View.ld_unit_zero (S := S5000x32) hz, View.ld_unit_zero (S := S5000x1) hz,
    View.ld_unit_zero (S := S64x32) hz, View.ld_unit_zero (S := S1x32) hz, View.ld_unit_zero (S := S64x128) hz,
    View.ld_unit_zero (S := S1x128) hz]
  funext y
  have h0 : (y 0).val < 5000 := (y 0).isLt
  have h1 : (y 1).val < 64 := (y 1).isLt
  have hN : cfg0.N = 20 := N_0
  have ht : t.val < 20 := hN ▸ t.isLt
  have hi := (idx_facts t).2.2.2.2.2.2.2.2.2.2
  have hy : y = (ix2 (⟨(y 0).val, h0⟩ : Fin 5000) (⟨(y 1).val, h1⟩ : Fin 64) : S5000x64.Idx) :=
    funext fun a => Fin.ext (by match a with | ⟨0, _⟩ => rfl | ⟨1, _⟩ => rfl)
  have he : ((cfg0.win 10).blk t).view.emb y
      = (ix2 (⟨5000 * t.val + (y 0).val, by omega⟩ : Fin 100000) (⟨(y 1).val, h1⟩ : Fin 64) : S100000x64.Idx) :=
    funext fun a => Fin.ext (by
      match a with
      | ⟨0, _⟩ => show win0_10.index t 0 * 5000 + 1 * (y 0).val = 5000 * t.val + (y 0).val; rw [hi.1]; omega
      | ⟨1, _⟩ => show win0_10.index t 1 * 64 + 1 * (y 1).val = (y 1).val; rw [hi.2]; omega)
  show k0_pay1 (iblk m c 0 t : FVec Ideal S5000x64 .f32) (k0_pay2 (iblk m c 0 t))
      (k0_pay3 (iblk m c 1 t) (iblk m c 2 t) (iblk m c 3 t) (iblk m c 8 t) (iblk m c 9 t))
      (k0_pay5 (iblk m c 0 t) (iblk m c 4 t) (iblk m c 5 t)) (k0_pay7 (iblk m c 0 t) (iblk m c 4 t) (iblk m c 5 t))
      (k0_pay8 (iblk m c 0 t) (iblk m c 4 t) (iblk m c 5 t)) (k0_pay9 (iblk m c 0 t) (iblk m c 4 t) (iblk m c 5 t))
      (iblk m c 6 t) (iblk m c 7 t) y
    = nodes (V m c main_arg0) (V m c main_arg1) (V m c main_v9) (V m c main_v21) (V m c main_v25) (V m c main_v27) (V m c main_v29) (V m c main_v32) (V m c main_v31) (V m c main_v33) (((cfg0.win 10).blk t).view.emb y)
  rw [he]
  refine (congrArg _ hy).trans ?_
  refine (block_row (iblk m c 0 t) (iblk m c 1 t) (iblk m c 2 t) (iblk m c 3 t) (iblk m c 4 t) (iblk m c 5 t) (iblk m c 6 t)
    (iblk m c 7 t) (iblk m c 8 t) (iblk m c 9 t) ⟨(y 0).val, h0⟩ ⟨(y 1).val, h1⟩).trans ?_
  show _ = nodeAt (V m c main_arg0) (V m c main_arg1) (V m c main_v9) (V m c main_v21) (V m c main_v25) (V m c main_v27) (V m c main_v29) (V m c main_v32) (V m c main_v31) (V m c main_v33) ⟨5000 * t.val + (y 0).val, _⟩ ⟨(y 1).val, _⟩
  unfold nodeAt
  simp only [iblk0_apply m c t (ix2 (⟨(y 0).val, h0⟩ : Fin 5000) _) (ix2 (⟨5000 * t.val + (y 0).val, by omega⟩ : Fin 100000) _) rfl rfl,
    iblk1_apply m c t (ix2 (⟨(y 0).val, h0⟩ : Fin 5000) _) (ix2 (⟨5000 * t.val + (y 0).val, by omega⟩ : Fin 100000) _) rfl rfl,
    iblk2_apply m c t (ix2 (⟨(y 0).val, h0⟩ : Fin 5000) _) (ix2 (⟨5000 * t.val + (y 0).val, by omega⟩ : Fin 100000) _) rfl rfl,
    iblk3_apply m c t (ix2 (⟨(y 0).val, h0⟩ : Fin 5000) _) (ix2 (⟨5000 * t.val + (y 0).val, by omega⟩ : Fin 100000) _) rfl rfl,
    iblk4_apply, iblk5_apply, iblk6_apply, iblk7_apply, iblk8_apply, iblk9_apply]

/-- An index of the array is in point `t`'s block iff each coordinate is in the block's range on its axis. -/
theorem mem_blk (t : Fin cfg0.N) (i : S100000x64.Idx) :
    i ∈ ((cfg0.win 10).blk t).view.set ↔ ∀ a : Fin 2, win0_10.index t a * S5000x64.size a ≤ (i a).val
      ∧ (i a).val < win0_10.index t a * S5000x64.size a + S5000x64.size a := by
  show i ∈ ((View.whole main_v34).slice (win0_10.rect t)).set ↔ _
  rw [View.set_slice_whole, Rect.mem_set_unit]
  exact Iff.rfl

/-- Every index is in some point's block: row `n` is in the block of point `n / 5000`. -/
theorem cover (i : S100000x64.Idx) : ∃ t : Fin cfg0.N, (cfg0.win 10).flush t = true ∧ i ∈ ((cfg0.win 10).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_10 _, ?_⟩
  have hf := (idx_facts ⟨(i 0).val / 5000, by rw [hN]; omega⟩).2.2.2.2.2.2.2.2.2.2
  rw [mem_blk]
  intro a
  match a with
  | ⟨0, _⟩ =>
    show win0_10.index _ 0 * 5000 ≤ (i 0).val ∧ (i 0).val < win0_10.index _ 0 * 5000 + 5000
    rw [hf.1]; show (i 0).val / 5000 * 5000 ≤ (i 0).val ∧ (i 0).val < (i 0).val / 5000 * 5000 + 5000; omega
  | ⟨1, _⟩ =>
    show win0_10.index _ 1 * 64 ≤ (i 1).val ∧ (i 1).val < win0_10.index _ 1 * 64 + 64
    rw [hf.2]; omega

/-- The result array after the run is `nodes` of the window arrays. -/
theorem final (c : Dev nD) : (dats m 0 c).arrAt 10 cfg0.N = nodes (V m c main_arg0) (V m c main_arg1) (V m c main_v9) (V m c main_v21) (V m c main_v25) (V m c main_v27) (V m c main_v29) (V m c main_v32) (V m c main_v31) (V m c main_v33) :=
  (dats m 0 c).arrAt_eq_of_cover 10 (nodes (V m c main_arg0) (V m c main_arg1) (V m c main_v9) (V m c main_v21) (V m c main_v25) (V m c main_v27) (V m c main_v29) (V m c main_v32) (V m c main_v31) (V m c main_v33)) (fun t _ => flushed_eq m c t) cover

/-- The kernel's run: the result at `nodes` of the window arrays, the arguments unchanged. -/
theorem run : θ_run defs (onTc (τ := τ) (main (F := Ideal))) ⟨m, fun _ => 0, ρ⟩ fun r => ∀ c : Dev nD,
      r.2.mem ((c : Thread nD τ).loc main_v34) = nodes (V m c main_arg0) (V m c main_arg1) (V m c main_v9) (V m c main_v21) (V m c main_v25) (V m c main_v27) (V m c main_v29) (V m c main_v32) (V m c main_v31) (V m c main_v33)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.RefRun.lean ====
/-
  The reference's run, read back as a function of its arguments.

  The reference is a straight line of host operations. Its result is stated here over named stages: the neighbour sum
  (a scatter-add of gathered intensity rows) and the degree count (a scatter-add of ones), the neighbour mean (the sum
  divided by the degree where the degree is positive, zero elsewhere), three affine maps of a node's state through the
  transposed weight matrices, the softplus of two of them, the hyperbolic tangent of the third, the rectified affine
  map of the node's intensity beside its neighbour mean, the drift `-F u + G [Z ; A]`, and the projection that takes
  the component along the first half of the state out of the first half of the drift.
-/
import proofs.«151539_j83915071029947_2_alg».proof.Proof.Gen.ReferenceIdeal
import Idealize.ShloMosaic.Lib.StableHlo.Run
import proofs.«151539_j83915071029947_2_alg».proof.Proof.LibRowLayout

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 108 operations, in order (a called function's operations stand in its call's place, spelt `TRef.…`). -/
abbrev ops : List (HloOp τ sig (Elt F)) :=
  [ nullary main_c (constantI S_ 32 0#32),
    unary main_c main_v0 (broadcastInDim S3200000 ![] bcast_S_S3200000 : (⟨S_, .i32⟩ : BufTy).Contents (Elt F) → (⟨S3200000, .i32⟩ : BufTy).Contents (Elt F)),
    binary main_arg2 main_v0 main_v1 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v2 (broadcastInDim S3200000 ![] bcast_S_S3200000 : (⟨S_, .i32⟩ : BufTy).Contents (Elt F) → (⟨S3200000, .i32⟩ : BufTy).Contents (Elt F)),
    binary main_arg2 main_v2 main_v3 (addi : (⟨S3200000, .i32⟩ : BufTy).Contents (Elt F) → (⟨S3200000, .i32⟩ : BufTy).Contents (Elt F) → (⟨S3200000, .i32⟩ : BufTy).Contents (Elt F)),
    ternary main_v1 main_v3 main_arg2 main_v4 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v4 main_v5 (broadcastInDim S3200000x1 ![0] bcast_S3200000_S3200000x1_0 : (⟨S3200000, .i32⟩ : BufTy).Contents (Elt F) → (⟨S3200000x1, .i32⟩ : BufTy).Contents (Elt F)),
    binary main_arg1 main_v5 main_v6 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    nullary main_cst (constant S_ .f32 0x00000000#32),
    unary main_cst main_v7 (broadcastInDim S100000x32 ![] bcast_S_S100000x32 : (⟨S_, .f32⟩ : BufTy).Contents (Elt F) → (⟨S100000x32, .f32⟩ : BufTy).Contents (Elt F)),
    unary main_arg3 main_v8 (broadcastInDim S3200000x1 ![0] bcast_S3200000_S3200000x1_0 : (⟨S3200000, .i32⟩ : BufTy).Contents (Elt F) → (⟨S3200000x1, .i32⟩ : BufTy).Contents (Elt F)),
    ternary main_v7 main_v8 main_v6 main_v9 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    nullary main_cst_1 (constant S_ .f32 0x3F800000#32),
    unary main_cst_1 main_v10 (broadcastInDim S3200000 ![] bcast_S_S3200000 : (⟨S_, .f32⟩ : BufTy).Contents (Elt F) → (⟨S3200000, .f32⟩ : BufTy).Contents (Elt F)),
    nullary main_cst_2 (constant S_ .f32 0x00000000#32),
    unary main_cst_2 main_v11 (broadcastInDim S100000 ![] bcast_S_S100000 : (⟨S_, .f32⟩ : BufTy).Contents (Elt F) → (⟨S100000, .f32⟩ : BufTy).Contents (Elt F)),
    unary main_arg3 main_v12 (broadcastInDim S3200000x1 ![0] bcast_S3200000_S3200000x1_0 : (⟨S3200000, .i32⟩ : BufTy).Contents (Elt F) → (⟨S3200000x1, .i32⟩ : BufTy).Contents (Elt F)),
    ternary main_v11 main_v12 main_v10 main_v13 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    unary main_v13 main_v14 (broadcastInDim S100000x1 ![0] bcast_S100000_S100000x1_0 : (⟨S100000, .f32⟩ : BufTy).Contents (Elt F) → (⟨S100000x1, .f32⟩ : BufTy).Contents (Elt F)),
    nullary main_cst_3 (constant S_ .f32 0x00000000#32),
    unary main_cst_3 main_v15 (broadcastInDim S100000x1 ![] bcast_S_S100000x1 : (⟨S_, .f32⟩ : BufTy).Contents (Elt F) → (⟨S100000x1, .f32⟩ : BufTy).Contents (Elt F)),
    binary main_v14 main_v15 main_v16 (cmpf .ogt : (⟨S100000x1, .f32⟩ : BufTy).Contents (Elt F) → (⟨S100000x1, .f32⟩ : BufTy).Contents (Elt F) → (⟨S100000x1, .i1⟩ : BufTy).Contents (Elt F)),
    nullary main_cst_4 (constant S_ .f32 0x3F800000#32),
    unary main_cst_4 main_v17 (broadcastInDim S100000 ![] bcast_S_S100000 : (⟨S_, .f32⟩ : BufTy).Contents (Elt F) → (⟨S100000, .f32⟩ : BufTy).Contents (Elt F)),
    binary main_v13 main_v17 main_v18 (maximumf : (⟨S100000, .f32⟩ : BufTy).Contents (Elt F) → (⟨S100000, .f32⟩ : BufTy).Contents (Elt F) → (⟨S100000, .f32⟩ : BufTy).Contents (Elt F)),
    unary main_v18 main_v19 (broadcastInDim S100000x1 ![0] bcast_S100000_S100000x1_0 : (⟨S100000, .f32⟩ : BufTy).Contents (Elt F) → (⟨S100000x1, .f32⟩ : BufTy).Contents (Elt F)),
    unary main_v19 main_v20 (broadcastInDim S100000x32 ![0, 1] bcast_S100000x1_S100000x32_0_1 : (⟨S100000x1, .f32⟩ : BufTy).Contents (Elt F) → (⟨S100000x32, .f32⟩ : BufTy).Contents (Elt F)),
    binary main_v9 main_v20 main_v21 (Host.divf : (⟨S100000x32, .f32⟩ : BufTy).Contents (Elt F) → (⟨S100000x32, .f32⟩ : BufTy).Contents (Elt F) → (⟨S100000x32, .f32⟩ : BufTy).Contents (Elt F)),
    nullary main_cst_5 (constant S_ .f32 0x00000000#32),
    TRef.unary (TRef.of (T := ⟨S_, .f32⟩) main_cst_5) (TRef.of (T := ⟨S_, .f32⟩) main_call0_v0) id,
    TRef.unary (TRef.of (T := ⟨S100000x1, .i1⟩) main_v16) (TRef.of (T := ⟨S100000x32, .i1⟩) main_call0_v1) (broadcastInDim S100000x32 ![0, 1] bcast_S100000x1_S100000x32_0_1),
    TRef.unary (TRef.of (T := ⟨S_, .f32⟩) main_call0_v0) (TRef.of (T := ⟨S100000x32, .f32⟩) main_call0_v2) (broadcastInDim S100000x32 ![] bcast_S_S100000x32),
    TRef.ternary (TRef.of (T := ⟨S100000x32, .i1⟩) main_call0_v1) (TRef.of (T := ⟨S100000x32, .f32⟩) main_v21) (TRef.of (T := ⟨S100000x32, .f32⟩) main_call0_v2) (TRef.of (T := ⟨S100000x32, .f32⟩) main_v22) select,
    binary main_arg1 main_v22 main_v23 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    unary main_arg10 main_v24 ((transpose S64x32 [1, 0] · transposes_S32x64_S64x32_1_0) : (⟨S32x64, .f32⟩ : BufTy).Contents (Elt F) → (⟨S64x32, .f32⟩ : BufTy).Contents (Elt F)),
    binary main_v23 main_v24 main_v25 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg11 main_v26 (broadcastInDim S1x32 ![1] bcast_S32_S1x32_1 : (⟨S32, .f32⟩ : BufTy).Contents (Elt F) → (⟨S1x32, .f32⟩ : BufTy).Contents (Elt F)),
    unary main_v26 main_v27 (broadcastInDim S100000x32 ![0, 1] bcast_S1x32_S100000x32_0_1 : (⟨S1x32, .f32⟩ : BufTy).Contents (Elt F) → (⟨S100000x32, .f32⟩ : BufTy).Contents (Elt F)),
    binary main_v25 main_v27 main_v28 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v28) (TRef.of (T := ⟨S100000x32, .f32⟩) main_call1_v0) (TRef.of (T := ⟨S100000x32, .f32⟩) main_v29) maximumf,
    unary main_arg4 main_v30 ((transpose S64x64 [1, 0] · transposes_S64x64_S64x64_1_0) : (⟨S64x64, .f32⟩ : BufTy).Contents (Elt F) → (⟨S64x64, .f32⟩ : BufTy).Contents (Elt F)),
    binary main_arg0 main_v30 main_v31 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v32 (broadcastInDim S1x64 ![1] bcast_S64_S1x64_1 : (⟨S64, .f32⟩ : BufTy).Contents (Elt F) → (⟨S1x64, .f32⟩ : BufTy).Contents (Elt F)),
    unary main_v32 main_v33 (broadcastInDim S100000x64 ![0, 1] bcast_S1x64_S100000x64_0_1 : (⟨S1x64, .f32⟩ : BufTy).Contents (Elt F) → (⟨S100000x64, .f32⟩ : BufTy).Contents (Elt F)),
    binary main_v31 main_v33 main_v34 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v34) (TRef.of (T := ⟨S100000x64, .f32⟩) main_call2_v0) (TRef.of (T := ⟨S100000x64, .f32⟩) main_call2_v1) maximumf,
    TRef.unary (TRef.of (T := ⟨S_, .f32⟩) main_call2_cst) (TRef.of (T := ⟨S100000x64, .f32⟩) main_call2_v2) (broadcastInDim S100000x64 ![] bcast_S_S100000x64),
    TRef.binary (TRef.of (T := ⟨S100000x64, .f32⟩) main_v34) (TRef.of (T := ⟨S100000x64, .f32⟩) main_call2_v2) (TRef.of (T := ⟨S100000x64, .f32⟩) main_call2_v3) subf,
    TRef.binary (TRef.of (T := ⟨S100000x64, .f32⟩) main_call2_v3) (TRef.of (T := ⟨S100000x64, .f32⟩) main_call2_v3) (TRef.of (T := ⟨S100000x64, .i1⟩) main_call2_v4) (cmpf .une),
    TRef.unary (TRef.of (T := ⟨S_, .f32⟩) main_call2_cst) (TRef.of (T := ⟨S100000x64, .f32⟩) main_call2_v5) (broadcastInDim S100000x64 ![] bcast_S_S100000x64),
    TRef.binary (TRef.of (T := ⟨S100000x64, .f32⟩) main_v34) (TRef.of (T := ⟨S100000x64, .f32⟩) main_call2_v5) (TRef.of (T := ⟨S100000x64, .f32⟩) main_call2_v6) addf,
    TRef.unary (TRef.of (T := ⟨S100000x64, .f32⟩) main_call2_v3) (TRef.of (T := ⟨S100000x64, .f32⟩) main_call2_v7) Host.absf,
    TRef.unary (TRef.of (T := ⟨S100000x64, .f32⟩) main_call2_v7) (TRef.of (T := ⟨S100000x64, .f32⟩) main_call2_v8) Host.negf,
    TRef.unary (TRef.of (T := ⟨S100000x64, .f32⟩) main_call2_v8) (TRef.of (T := ⟨S100000x64, .f32⟩) main_call2_v9) Host.exp,
    TRef.unary (TRef.of (T := ⟨S100000x64, .f32⟩) main_call2_v9) (TRef.of (T := ⟨S100000x64, .f32⟩) main_call2_v10) Host.log1p,
    TRef.binary (TRef.of (T := ⟨S100000x64, .f32⟩) main_call2_v1) (TRef.of (T := ⟨S100000x64, .f32⟩) main_call2_v10) (TRef.of (T := ⟨S100000x64, .f32⟩) main_call2_v11) addf,
    TRef.ternary (TRef.of (T := ⟨S100000x64, .i1⟩) main_call2_v4) (TRef.of (T := ⟨S100000x64, .f32⟩) main_call2_v6) (TRef.of (T := ⟨S100000x64, .f32⟩) main_call2_v11) (TRef.of (T := ⟨S100000x64, .f32⟩) main_v35) select,
    unary main_arg6 main_v36 ((transpose S64x64 [1, 0] · transposes_S64x64_S64x64_1_0) : (⟨S64x64, .f32⟩ : BufTy).Contents (Elt F) → (⟨S64x64, .f32⟩ : BufTy).Contents (Elt F)),
    binary main_arg0 main_v36 main_v37 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg7 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v37 main_v39 main_v40 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v40) (TRef.of (T := ⟨S100000x64, .f32⟩) main_call3_v0) (TRef.of (T := ⟨S100000x64, .f32⟩) main_call3_v1) maximumf,
    TRef.unary (TRef.of (T := ⟨S_, .f32⟩) main_call3_cst) (TRef.of (T := ⟨S100000x64, .f32⟩) main_call3_v2) (broadcastInDim S100000x64 ![] bcast_S_S100000x64),
    TRef.binary (TRef.of (T := ⟨S100000x64, .f32⟩) main_v40) (TRef.of (T := ⟨S100000x64, .f32⟩) main_call3_v2) (TRef.of (T := ⟨S100000x64, .f32⟩) main_call3_v3) subf,
    TRef.binary (TRef.of (T := ⟨S100000x64, .f32⟩) main_call3_v3) (TRef.of (T := ⟨S100000x64, .f32⟩) main_call3_v3) (TRef.of (T := ⟨S100000x64, .i1⟩) main_call3_v4) (cmpf .une),
    TRef.unary (TRef.of (T := ⟨S_, .f32⟩) main_call3_cst) (TRef.of (T := ⟨S100000x64, .f32⟩) main_call3_v5) (broadcastInDim S100000x64 ![] bcast_S_S100000x64),
    TRef.binary (TRef.of (T := ⟨S100000x64, .f32⟩) main_v40) (TRef.of (T := ⟨S100000x64, .f32⟩) main_call3_v5) (TRef.of (T := ⟨S100000x64, .f32⟩) main_call3_v6) addf,
    TRef.unary (TRef.of (T := ⟨S100000x64, .f32⟩) main_call3_v3) (TRef.of (T := ⟨S100000x64, .f32⟩) main_call3_v7) Host.absf,
    TRef.unary (TRef.of (T := ⟨S100000x64, .f32⟩) main_call3_v7) (TRef.of (T := ⟨S100000x64, .f32⟩) main_call3_v8) Host.negf,
    TRef.unary (TRef.of (T := ⟨S100000x64, .f32⟩) main_call3_v8) (TRef.of (T := ⟨S100000x64, .f32⟩) main_call3_v9) Host.exp,
    TRef.unary (TRef.of (T := ⟨S100000x64, .f32⟩) main_call3_v9) (TRef.of (T := ⟨S100000x64, .f32⟩) main_call3_v10) Host.log1p,
    TRef.binary (TRef.of (T := ⟨S100000x64, .f32⟩) main_call3_v1) (TRef.of (T := ⟨S100000x64, .f32⟩) main_call3_v10) (TRef.of (T := ⟨S100000x64, .f32⟩) main_call3_v11) addf,
    TRef.ternary (TRef.of (T := ⟨S100000x64, .i1⟩) main_call3_v4) (TRef.of (T := ⟨S100000x64, .f32⟩) main_call3_v6) (TRef.of (T := ⟨S100000x64, .f32⟩) main_call3_v11) (TRef.of (T := ⟨S100000x64, .f32⟩) main_v41) select,
    unary main_arg8 main_v42 ((transpose S64x32 [1, 0] · transposes_S32x64_S64x32_1_0) : (⟨S32x64, .f32⟩ : BufTy).Contents (Elt F) → (⟨S64x32, .f32⟩ : BufTy).Contents (Elt F)),
    binary main_arg0 main_v42 main_v43 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg9 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    unary main_v46 main_v47 (Host.tanh : (⟨S100000x32, .f32⟩ : BufTy).Contents (Elt F) → (⟨S100000x32, .f32⟩ : BufTy).Contents (Elt F)),
    unary main_v35 main_v48 (Host.negf : (⟨S100000x64, .f32⟩ : BufTy).Contents (Elt F) → (⟨S100000x64, .f32⟩ : BufTy).Contents (Elt F)),
    binary main_v48 main_arg0 main_v49 (mulf : (⟨S100000x64, .f32⟩ : BufTy).Contents (Elt F) → (⟨S100000x64, .f32⟩ : BufTy).Contents (Elt F) → (⟨S100000x64, .f32⟩ : BufTy).Contents (Elt F)),
    binary main_v47 main_v29 main_v50 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)),
    binary main_v41 main_v50 main_v51 (mulf : (⟨S100000x64, .f32⟩ : BufTy).Contents (Elt F) → (⟨S100000x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    unary main_arg0 main_v53 ((extractStridedSlice S100000x32 ![0, 0] · slices_S100000x64_S100000x32_0_0) : (⟨S100000x64, .f32⟩ : BufTy).Contents (Elt F) → (⟨S100000x32, .f32⟩ : BufTy).Contents (Elt F)),
    unary main_v52 main_v54 ((extractStridedSlice S100000x32 ![0, 0] · slices_S100000x64_S100000x32_0_0) : (⟨S100000x64, .f32⟩ : BufTy).Contents (Elt F) → (⟨S100000x32, .f32⟩ : BufTy).Contents (Elt F)),
    unary main_v52 main_v55 ((extractStridedSlice S100000x32 ![0, 32] · slices_S100000x64_S100000x32_0_32) : (⟨S100000x64, .f32⟩ : BufTy).Contents (Elt F) → (⟨S100000x32, .f32⟩ : BufTy).Contents (Elt F)),
    binary main_v54 main_v53 main_v56 (mulf : (⟨S100000x32, .f32⟩ : BufTy).Contents (Elt F) → (⟨S100000x32, .f32⟩ : BufTy).Contents (Elt F) → (⟨S100000x32, .f32⟩ : BufTy).Contents (Elt F)),
    nullary main_cst_6 (constant S_ .f32 0x00000000#32),
    binary main_v56 main_cst_6 main_v57 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v57 main_v58 (broadcastInDim S100000x1 ![0] bcast_S100000_S100000x1_0 : (⟨S100000, .f32⟩ : BufTy).Contents (Elt F) → (⟨S100000x1, .f32⟩ : BufTy).Contents (Elt F)),
    binary main_v53 main_v53 main_v59 (mulf : (⟨S100000x32, .f32⟩ : BufTy).Contents (Elt F) → (⟨S100000x32, .f32⟩ : BufTy).Contents (Elt F) → (⟨S100000x32, .f32⟩ : BufTy).Contents (Elt F)),
    nullary main_cst_7 (constant S_ .f32 0x00000000#32),
    binary main_v59 main_cst_7 main_v60 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v60 main_v61 (broadcastInDim S100000x1 ![0] bcast_S100000_S100000x1_0 : (⟨S100000, .f32⟩ : BufTy).Contents (Elt F) → (⟨S100000x1, .f32⟩ : BufTy).Contents (Elt F)),
    binary main_v58 main_v61 main_v62 (Host.divf : (⟨S100000x1, .f32⟩ : BufTy).Contents (Elt F) → (⟨S100000x1, .f32⟩ : BufTy).Contents (Elt F) → (⟨S100000x1, .f32⟩ : BufTy).Contents (Elt F)),
    unary main_v62 main_v63 (broadcastInDim S100000x32 ![0, 1] bcast_S100000x1_S100000x32_0_1 : (⟨S100000x1, .f32⟩ : BufTy).Contents (Elt F) → (⟨S100000x32, .f32⟩ : BufTy).Contents (Elt F)),
    binary main_v63 main_v53 main_v64 (mulf : (⟨S100000x32, .f32⟩ : BufTy).Contents (Elt F) → (⟨S100000x32, .f32⟩ : BufTy).Contents (Elt F) → (⟨S100000x32, .f32⟩ : BufTy).Contents (Elt F)),
    binary main_v54 main_v64 main_v65 (subf : (⟨S100000x32, .f32⟩ : BufTy).Contents (Elt F) → (⟨S100000x32, .f32⟩ : BufTy).Contents (Elt F) → (⟨S100000x32, .f32⟩ : BufTy).Contents (Elt F)),
    binary main_v65 main_v55 main_v66 ((fun a b => concatenate S100000x64 1 [⟨S100000x32, a⟩, ⟨S100000x32, b⟩] concatenates_S100000x32_S100000x32_S100000x64_d1) : (⟨S100000x32, .f32⟩ : BufTy).Contents (Elt F) → (⟨S100000x32, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., unary_bufs_sub .., unary_bufs_sub .., ternary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., binary_bufs_sub .., binary_bufs_sub .., binary_bufs_sub .., unary_bufs_sub .., unary_bufs_sub .., unary_bufs_sub .., binary_bufs_sub .., nullary_bufs_sub .., binary_bufs_sub .., unary_bufs_sub .., binary_bufs_sub .., nullary_bufs_sub .., binary_bufs_sub .., unary_bufs_sub .., binary_bufs_sub .., unary_bufs_sub .., binary_bufs_sub .., binary_bufs_sub .., binary_bufs_sub ..⟩

/-! ## The stages -/

/-- The splat of zero over the nodes' rows of 64. -/
def zero64 : (⟨S100000x64, .f32⟩ : BufTy).Contents (Elt F) := broadcastInDim S100000x64 ![] bcast_S_S100000x64 (constant S_ .f32 0x00000000#32)

/-- The source indices, a negative one wrapped round once, as a column. -/
def sourceIdx (x2 : (⟨S3200000, .i32⟩ : BufTy).Contents (Elt F)) : (⟨S3200000x1, .i32⟩ : BufTy).Contents (Elt F) :=
  broadcastInDim S3200000x1 ![0] bcast_S3200000_S3200000x1_0
    (select (cmpi .slt x2 (broadcastInDim S3200000 ![] bcast_S_S3200000 (constantI S_ 32 0#32)))
      (addi x2 (broadcastInDim S3200000 ![] bcast_S_S3200000 (constantI S_ 32 100000#32))) x2)

/-- The neighbour sum: each edge adds its source's intensity row into its destination's row. -/
def nbrSum (x1 : (⟨S100000x32, .f32⟩ : BufTy).Contents (Elt F)) (x2 x3 : (⟨S3200000, .i32⟩ : BufTy).Contents (Elt F)) : (⟨S100000x32, .f32⟩ : BufTy).Contents (Elt F) :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 x3)
    (Host.gather gather_S100000x32_S3200000x1_S3200000x32_1_0_n_n_0_1_132 x1 (sourceIdx (F := F) x2))

/-- The degree: each edge adds one at its destination. -/
def degree (x3 : (⟨S3200000, .i32⟩ : BufTy).Contents (Elt F)) : (⟨S100000, .f32⟩ : BufTy).Contents (Elt F) :=
  Host.scatterAdd scatter_S100000_S3200000x1_S3200000_n_0_0_1
    (broadcastInDim S100000 ![] bcast_S_S100000 (constant S_ .f32 0x00000000#32))
    (broadcastInDim S3200000x1 ![0] bcast_S3200000_S3200000x1_0 x3)
    (broadcastInDim S3200000 ![] bcast_S_S3200000 (constant S_ .f32 0x3F800000#32))

/-- The neighbour mean: the sum over the degree (at least one) where the degree is positive, zero elsewhere. -/
def nbrMean (x1 : (⟨S100000x32, .f32⟩ : BufTy).Contents (Elt F)) (x2 x3 : (⟨S3200000, .i32⟩ : BufTy).Contents (Elt F)) : (⟨S100000x32, .f32⟩ : BufTy).Contents (Elt F) :=
  select
    (broadcastInDim S100000x32 ![0, 1] bcast_S100000x1_S100000x32_0_1
      (cmpf .ogt (broadcastInDim S100000x1 ![0] bcast_S100000_S100000x1_0 (degree (F := F) x3))
        (broadcastInDim S100000x1 ![] bcast_S_S100000x1 (constant S_ .f32 0x00000000#32))))
    (Host.divf (nbrSum x1 x2 x3)
      (broadcastInDim S100000x32 ![0, 1] bcast_S100000x1_S100000x32_0_1
        (broadcastInDim S100000x1 ![0] bcast_S100000_S100000x1_0
          (maximumf (degree (F := F) x3) (broadcastInDim S100000 ![] bcast_S_S100000 (constant S_ .f32 0x3F800000#32))))))
    (broadcastInDim S100000x32 ![] bcast_S_S100000x32 (id (constant S_ .f32 0x00000000#32)))

/-- The rectified affine map of a node's intensity beside its neighbour mean. -/
def aggregate (x1 : (⟨S100000x32, .f32⟩ : BufTy).Contents (Elt F)) (x2 x3 : (⟨S3200000, .i32⟩ : BufTy).Contents (Elt F)) (x10 : (⟨S32x64, .f32⟩ : BufTy).Contents (Elt F)) (x11 : (⟨S32, .f32⟩ : BufTy).Contents (Elt F)) : (⟨S100000x32, .f32⟩ : BufTy).Contents (Elt F) :=
  maximumf
    (addf
      (Host.dotGeneral dot_S100000x64_S64x32_S100000x32_1_0_0_1_n_n none
        (concatenate S100000x64 1 [⟨S100000x32, x1⟩, ⟨S100000x32, nbrMean x1 x2 x3⟩] concatenates_S100000x32_S100000x32_S100000x64_d1)
        (transpose S64x32 [1, 0] x10 transposes_S32x64_S64x32_1_0))
      (broadcastInDim S100000x32 ![0, 1] bcast_S1x32_S100000x32_0_1 (broadcastInDim S1x32 ![1] bcast_S32_S1x32_1 x11)))
    (broadcastInDim S100000x32 ![] bcast_S_S100000x32 (constant S_ .f32 0x00000000#32))

/-- An affine map of the state to 64 coordinates: the state against the transposed weights, plus the bias on every row. -/
def affine64 (x0 : (⟨S100000x64, .f32⟩ : BufTy).Contents (Elt F)) (w : (⟨S64x64, .f32⟩ : BufTy).Contents (Elt F)) (b : (⟨S64, .f32⟩ : BufTy).Contents (Elt F)) : (⟨S100000x64, .f32⟩ : BufTy).Contents (Elt F) :=
  addf (Host.dotGeneral dot_S100000x64_S64x64_S100000x64_1_0_0_1_n_n none x0 (transpose S64x64 [1, 0] w transposes_S64x64_S64x64_1_0))
    (broadcastInDim S100000x64 ![0, 1] bcast_S1x64_S100000x64_0_1 (broadcastInDim S1x64 ![1] bcast_S64_S1x64_1 b))

/-- An affine map of the state to 32 coordinates. -/
def affine32 (x0 : (⟨S100000x64, .f32⟩ : BufTy).Contents (Elt F)) (w : (⟨S32x64, .f32⟩ : BufTy).Contents (Elt F)) (b : (⟨S32, .f32⟩ : BufTy).Contents (Elt F)) : (⟨S100000x32, .f32⟩ : BufTy).Contents (Elt F) :=
  addf (Host.dotGeneral dot_S100000x64_S64x32_S100000x32_1_0_0_1_n_n none x0 (transpose S64x32 [1, 0] w transposes_S32x64_S64x32_1_0))
    (broadcastInDim S100000x32 ![0, 1] bcast_S1x32_S100000x32_0_1 (broadcastInDim S1x32 ![1] bcast_S32_S1x32_1 b))

/-- The softplus, as the logarithm of a sum of exponentials is computed: the larger of `v` and zero plus
    `log (1 + exp (-|v - 0|))`, under a guard on `v - 0` differing from itself. -/
def softplus (v : (⟨S100000x64, .f32⟩ : BufTy).Contents (Elt F)) : (⟨S100000x64, .f32⟩ : BufTy).Contents (Elt F) :=
  select (cmpf .une (subf v zero64) (subf v zero64)) (addf v zero64)
    (addf (maximumf v zero64) (Host.log1p (Host.exp (Host.negf (Host.absf (subf v zero64))))))

/-- The drift before the projection: `-softplus(F u) · u + softplus(G u) · [tanh(Z u) ; aggregate]`. -/
def drift (x0 : (⟨S100000x64, .f32⟩ : BufTy).Contents (Elt F)) (x1 : (⟨S100000x32, .f32⟩ : BufTy).Contents (Elt F)) (x2 x3 : (⟨S3200000, .i32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S32x64, .f32⟩ : BufTy).Contents (Elt F)) (x9 : (⟨S32, .f32⟩ : BufTy).Contents (Elt F)) (x10 : (⟨S32x64, .f32⟩ : BufTy).Contents (Elt F)) (x11 : (⟨S32, .f32⟩ : BufTy).Contents (Elt F)) : (⟨S100000x64, .f32⟩ : BufTy).Contents (Elt F) :=
  addf (mulf (Host.negf (softplus (affine64 x0 x4 x5))) x0)
    (mulf (softplus (affine64 x0 x6 x7))
      (concatenate S100000x64 1 [⟨S100000x32, Host.tanh (affine32 x0 x8 x9)⟩, ⟨S100000x32, aggregate x1 x2 x3 x10 x11⟩] concatenates_S100000x32_S100000x32_S100000x64_d1))

/-- The first half of the state. -/
def stateP (x0 : (⟨S100000x64, .f32⟩ : BufTy).Contents (Elt F)) : (⟨S100000x32, .f32⟩ : BufTy).Contents (Elt F) :=
  extractStridedSlice S100000x32 ![0, 0] x0 slices_S100000x64_S100000x32_0_0

/-- The first half of the drift. -/
def driftP (x0 : (⟨S100000x64, .f32⟩ : BufTy).Contents (Elt F)) (x1 : (⟨S100000x32, .f32⟩ : BufTy).Contents (Elt F)) (x2 x3 : (⟨S3200000, .i32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S32x64, .f32⟩ : BufTy).Contents (Elt F)) (x9 : (⟨S32, .f32⟩ : BufTy).Contents (Elt F)) (x10 : (⟨S32x64, .f32⟩ : BufTy).Contents (Elt F)) (x11 : (⟨S32, .f32⟩ : BufTy).Contents (Elt F)) : (⟨S100000x32, .f32⟩ : BufTy).Contents (Elt F) :=
  extractStridedSlice S100000x32 ![0, 0] (drift x0 x1 x2 x3 x4 x5 x6 x7 x8 x9 x10 x11) slices_S100000x64_S100000x32_0_0

/-- The result: the first half of the drift less its component along the first half of the state, beside the second
    half of the drift. -/
def result (x0 : (⟨S100000x64, .f32⟩ : BufTy).Contents (Elt F)) (x1 : (⟨S100000x32, .f32⟩ : BufTy).Contents (Elt F)) (x2 x3 : (⟨S3200000, .i32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S32x64, .f32⟩ : BufTy).Contents (Elt F)) (x9 : (⟨S32, .f32⟩ : BufTy).Contents (Elt F)) (x10 : (⟨S32x64, .f32⟩ : BufTy).Contents (Elt F)) (x11 : (⟨S32, .f32⟩ : BufTy).Contents (Elt F)) : (⟨S100000x64, .f32⟩ : BufTy).Contents (Elt F) :=
  concatenate S100000x64 1
    [⟨S100000x32, subf (driftP x0 x1 x2 x3 x4 x5 x6 x7 x8 x9 x10 x11)
        (mulf (broadcastInDim S100000x32 ![0, 1] bcast_S100000x1_S100000x32_0_1
            (Host.divf
              (broadcastInDim S100000x1 ![0] bcast_S100000_S100000x1_0
                (Host.reduceAdd (mulf (driftP x0 x1 x2 x3 x4 x5 x6 x7 x8 x9 x10 x11) (stateP x0)) (constant S_ .f32 0x00000000#32) reducesTo_S100000x32_S100000_d1 h_S_))
              (broadcastInDim S100000x1 ![0] bcast_S100000_S100000x1_0
                (Host.reduceAdd (mulf (stateP x0) (stateP x0)) (constant S_ .f32 0x00000000#32) reducesTo_S100000x32_S100000_d1 h_S_))))
          (stateP x0))⟩,
     ⟨S100000x32, extractStridedSlice S100000x32 ![0, 32] (drift x0 x1 x2 x3 x4 x5 x6 x7 x8 x9 x10 x11) slices_S100000x64_S100000x32_0_32⟩]
    concatenates_S100000x32_S100000x32_S100000x64_d1

/-! ## The run -/

set_option maxRecDepth 8192 in
set_option maxHeartbeats 43200000 in
/-- On every device, from any memory with zero counters: every weakly fair execution of the reference terminates with its
    result at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v66).trans (by
        simp (disch := decide) only [after_cons, after_nil,
          nullary_result', unary_result', binary_result', ternary_result', quaternary_result', reshape_result', nary4_result', nary_result',
          unaryIndexed_result', binaryIndexed_result',
          nullary_result_ne', unary_result_ne', binary_result_ne', ternary_result_ne', quaternary_result_ne', reshape_result_ne',
          nary_result_ne', unaryIndexed_result_ne', binaryIndexed_result_ne', RowLayout.concat2_eq]
        rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RefRun

end
-- ==== Proof.RefRead.lean ====
/-
  The reference's result, read at a node `n` and a coordinate `j`.

  Every stage of the reference acts row by row, like the kernel's body: the products contract a node's row against a
  transposed weight matrix (so output coordinate `j` meets row `j` of the weights), the biases are spread over the
  rows, the two sums run along a node's row. Read at `(n, j)`, the result is the node function of NodeSpec of row `n` of
  the state, of the intensity beside the neighbour mean, and of the weights as given.
-/
import proofs.«151539_j83915071029947_2_alg».proof.Proof.RefRun
import proofs.«151539_j83915071029947_2_alg».proof.Proof.JoinRows
import proofs.«151539_j83915071029947_2_alg».proof.Proof.LibRowsCols
import Idealize.ShloMosaic.Lib.ValueLayout
import Idealize.ShloMosaic.Lib.Pipeline.Value
import Idealize.ShloMosaic.PureOps.Ideal.Laws
import Idealize.ShloMosaic.Lib.IdealHost

noncomputable section

namespace Cert.ReferenceIdeal.RefRead

open Cert.ReferenceIdeal Cert.ReferenceIdeal.Gen Cert.ReferenceIdeal.RefRun Idealize.ShloMosaic Idealize.ShloMosaic.ValueIdx

variable {α : Type}

/-! ## Spreading and re-arranging, at explicit coordinates -/

theorem bias_row64 (b : S64.Idx → α) (h : S64.BroadcastsInDim S1x64 ![1]) (u : Fin 1) (j : Fin 64) :
    broadcastInDim S1x64 ![1] h b (ix2 u j) = b (ix1 j) :=
  broadcastInDim_apply _ h b (ix2 u j) (ix1 j) (fun a => by match a with | ⟨0, _⟩ => rfl)

theorem bias_row32 (b : S32.Idx → α) (h : S32.BroadcastsInDim S1x32 ![1]) (u : Fin 1) (j : Fin 32) :
    broadcastInDim S1x32 ![1] h b (ix2 u j) = b (ix1 j) :=
  broadcastInDim_apply _ h b (ix2 u j) (ix1 j) (fun a => by match a with | ⟨0, _⟩ => rfl)

theorem rows64 (x : S1x64.Idx → α) (h : S1x64.BroadcastsInDim S100000x64 ![0, 1]) (n : Fin 100000) (j : Fin 64) :
    broadcastInDim S100000x64 ![0, 1] h x (ix2 n j) = x (ix2 (0 : Fin 1) j) :=
  broadcastInDim_apply _ h x (ix2 n j) (ix2 (0 : Fin 1) j) (fun a => by match a with | ⟨0, _⟩ => rfl | ⟨1, _⟩ => rfl)

theorem rows32 (x : S1x32.Idx → α) (h : S1x32.BroadcastsInDim S100000x32 ![0, 1]) (n : Fin 100000) (j : Fin 32) :
    broadcastInDim S100000x32 ![0, 1] h x (ix2 n j) = x (ix2 (0 : Fin 1) j) :=
  broadcastInDim_apply _ h x (ix2 n j) (ix2 (0 : Fin 1) j) (fun a => by match a with | ⟨0, _⟩ => rfl | ⟨1, _⟩ => rfl)

/-- A per-node value as a column. -/
theorem column (x : S100000.Idx → α) (h : S100000.BroadcastsInDim S100000x1 ![0]) (n : Fin 100000) (u : Fin 1) :
    broadcastInDim S100000x1 ![0] h x (ix2 n u) = x (ix1 n) :=
  broadcastInDim_apply _ h x (ix2 n u) (ix1 n) (fun a => by match a with | ⟨0, _⟩ => rfl)

/-- A column spread over 32 coordinates. -/
theorem cols32 (x : S100000x1.Idx → α) (h : S100000x1.BroadcastsInDim S100000x32 ![0, 1]) (n : Fin 100000) (q : Fin 32) :
    broadcastInDim S100000x32 ![0, 1] h x (ix2 n q) = x (ix2 n (0 : Fin 1)) :=
  broadcastInDim_apply _ h x (ix2 n q) (ix2 n (0 : Fin 1)) (fun a => by match a with | ⟨0, _⟩ => rfl | ⟨1, _⟩ => rfl)

theorem transpose64 (w : S64x64.Idx → α) (h : S64x64.Transposes [1, 0] S64x64) (k j : Fin 64) :
    transpose S64x64 [1, 0] w h (ix2 k j) = w (ix2 j k) := transpose_ix2_apply w h k j

theorem transpose32 (w : S32x64.Idx → α) (h : S32x64.Transposes [1, 0] S64x32) (k : Fin 64) (p : Fin 32) :
    transpose S64x32 [1, 0] w h (ix2 k p) = w (ix2 p k) := transpose_ix2_apply w h k p

theorem first32 (x : S100000x64.Idx → α) (h : S100000x64.Slices ![0, 0] S100000x32) (n : Fin 100000) (p : Fin 32) :
    extractStridedSlice S100000x32 ![0, 0] x h (ix2 n p) = x (ix2 n (NodeDrift.lo p)) :=
  slice2_axis1_apply 0 x h n p (NodeDrift.lo p) (by show p.val = 0 + p.val; omega)

theorem last32 (x : S100000x64.Idx → α) (h : S100000x64.Slices ![0, 32] S100000x32) (n : Fin 100000) (p : Fin 32) :
    extractStridedSlice S100000x32 ![0, 32] x h (ix2 n p) = x (ix2 n (NodeDrift.hi p)) :=
  slice2_axis1_apply 32 x h n p (NodeDrift.hi p) rfl

theorem beside (x₁ x₂ : S100000x32.Idx → α) (h : Shape.Concatenates [S100000x32, S100000x32] S100000x64 1) (n : Fin 100000) (k : Fin 64) :
    concatenate S100000x64 1 [⟨S100000x32, x₁⟩, ⟨S100000x32, x₂⟩] h (ix2 n k)
      = NodeDrift.join (fun p => x₁ (ix2 n p)) (fun q => x₂ (ix2 n q)) k :=
  NodeDrift.concat_cols_join x₁ x₂ h n k

/-! ## The host's pointwise operations at an index -/

theorem hneg_apply {s : Shape} (a : FVec Ideal s .f32) (i : s.Idx) : Host.negf a i = -(a i) := rfl
theorem habs_apply {s : Shape} (a : FVec Ideal s .f32) (i : s.Idx) : Host.absf a i = max (a i) (-(a i)) := rfl
theorem hexp_apply {s : Shape} (a : FVec Ideal s .f32) (i : s.Idx) : Host.exp a i = Ideal.exp (a i) := rfl
theorem hlog1p_apply {s : Shape} (a : FVec Ideal s .f32) (i : s.Idx) : Host.log1p a i = Ideal.log1p (a i) := rfl
theorem htanh_apply {s : Shape} (a : FVec Ideal s .f32) (i : s.Idx) : Host.tanh a i = Ideal.tanh (a i) := rfl
theorem hdiv_apply {s : Shape} (a b : FVec Ideal s .f32) (i : s.Idx) : Host.divf a b i = Ideal.div (a i) (b i) := rfl

/-! ## The two products and the row sum -/

theorem prod64_l0 (j : S100000x64.Idx) (q : dot_S100000x64_S64x64_S100000x64_1_0_0_1_n_n.contr.Idx) :
    (dot_S100000x64_S64x64_S100000x64_1_0_0_1_n_n.lhsIdx j q 0).val = (j 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem prod64_r1 (j : S100000x64.Idx) (q : dot_S100000x64_S64x64_S100000x64_1_0_0_1_n_n.contr.Idx) :
    (dot_S100000x64_S64x64_S100000x64_1_0_0_1_n_n.rhsIdx j q 1).val = (j 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

theorem prod32_l0 (j : S100000x32.Idx) (q : dot_S100000x64_S64x32_S100000x32_1_0_0_1_n_n.contr.Idx) :
    (dot_S100000x64_S64x32_S100000x32_1_0_0_1_n_n.lhsIdx j q 0).val = (j 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem prod32_r1 (j : S100000x32.Idx) (q : dot_S100000x64_S64x32_S100000x32_1_0_0_1_n_n.contr.Idx) :
    (dot_S100000x64_S64x32_S100000x32_1_0_0_1_n_n.rhsIdx j q 1).val = (j 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl

theorem prod64_apply (l : FVec Ideal S100000x64 .f32) (r : FVec Ideal S64x64 .f32) (n : Fin 100000) (j : Fin 64) :
    Host.dotGeneral dot_S100000x64_S64x64_S100000x64_1_0_0_1_n_n none l r (ix2 n j) = ∑ k : Fin 64, l (ix2 n k) * r (ix2 k j) := by
  simp only [Host.dotGeneral]
  exact RowsCols.dotGeneral_apply dot_S100000x64_S64x64_S100000x64_1_0_0_1_n_n rfl rfl rfl rfl prod64_l0 prod64_r1 none _ l r n j

theorem prod32_apply (l : FVec Ideal S100000x64 .f32) (r : FVec Ideal S64x32 .f32) (n : Fin 100000) (j : Fin 32) :
    Host.dotGeneral dot_S100000x64_S64x32_S100000x32_1_0_0_1_n_n none l r (ix2 n j) = ∑ k : Fin 64, l (ix2 n k) * r (ix2 k j) := by
  simp only [Host.dotGeneral]
  exact RowsCols.dotGeneral_apply dot_S100000x64_S64x32_S100000x32_1_0_0_1_n_n rfl rfl rfl rfl prod32_l0 prod32_r1 none _ l r n j

/-- A node's sum over its 32 columns, from the zero start. -/
theorem rowsum (x : FVec Ideal S100000x32 .f32) (h : S100000x32.ReducesTo [1] S100000) (hS : 0 < S_.numel) (n : Fin 100000) :
    Host.reduceAdd x (constant (F := Ideal) S_ .f32 0x00000000#32) h hS (ix1 n) = ∑ p : Fin 32, x (ix2 n p) := by
  simp only [Host.reduceAdd, Ideal.hostReduceAdd_def]
  rw [Ideal.hostReduceAdd_single h (by decide)]
  rw [constant_apply, Ideal.ofBits_zero_f32, zero_add]
  exact Finset.sum_congr rfl fun k _ => congrArg x (funext fun a => Fin.ext (by match a with | ⟨0, _⟩ => rfl | ⟨1, _⟩ => rfl))

/-! ## The layout operations under names of their own

Each re-arrangement the reference uses gets a name and its reading at explicit coordinates, so that a stage can be restated
over the names and read coordinate by coordinate. -/

/-- A 64 × 64 weight matrix transposed. -/
def tr64 (w : FVec Ideal S64x64 .f32) : FVec Ideal S64x64 .f32 := transpose S64x64 [1, 0] w transposes_S64x64_S64x64_1_0
theorem tr64_apply (w : FVec Ideal S64x64 .f32) (k j : Fin 64) : tr64 w (ix2 k j) = w (ix2 j k) := transpose_ix2_apply w _ k j

/-- A 32 × 64 weight matrix transposed. -/
def tr32 (w : FVec Ideal S32x64 .f32) : FVec Ideal S64x32 .f32 := transpose S64x32 [1, 0] w transposes_S32x64_S64x32_1_0
theorem tr32_apply (w : FVec Ideal S32x64 .f32) (k : Fin 64) (p : Fin 32) : tr32 w (ix2 k p) = w (ix2 p k) := transpose_ix2_apply w _ k p

/-- A bias of 64 on every node's row. -/
def biasRows64 (b : FVec Ideal S64 .f32) : FVec Ideal S100000x64 .f32 :=
  broadcastInDim S100000x64 ![0, 1] bcast_S1x64_S100000x64_0_1 (broadcastInDim S1x64 ![1] bcast_S64_S1x64_1 b)
theorem biasRows64_apply (b : FVec Ideal S64 .f32) (n : Fin 100000) (j : Fin 64) : biasRows64 b (ix2 n j) = b (ix1 j) :=
  (rows64 _ _ n j).trans (bias_row64 b _ 0 j)

/-- A bias of 32 on every node's row. -/
def biasRows32 (b : FVec Ideal S32 .f32) : FVec Ideal S100000x32 .f32 :=
  broadcastInDim S100000x32 ![0, 1] bcast_S1x32_S100000x32_0_1 (broadcastInDim S1x32 ![1] bcast_S32_S1x32_1 b)
theorem biasRows32_apply (b : FVec Ideal S32 .f32) (n : Fin 100000) (j : Fin 32) : biasRows32 b (ix2 n j) = b (ix1 j) :=
  (rows32 _ _ n j).trans (bias_row32 b _ 0 j)

/-- A per-node value as a column. -/
def col (x : S100000.Idx → α) : S100000x1.Idx → α := broadcastInDim S100000x1 ![0] bcast_S100000_S100000x1_0 x
theorem col_apply (x : S100000.Idx → α) (n : Fin 100000) (u : Fin 1) : col x (ix2 n u) = x (ix1 n) := column x _ n u

/-- A column spread over the 32 coordinates. -/
def spread32 (x : S100000x1.Idx → α) : S100000x32.Idx → α := broadcastInDim S100000x32 ![0, 1] bcast_S100000x1_S100000x32_0_1 x
theorem spread32_apply (x : S100000x1.Idx → α) (n : Fin 100000) (q : Fin 32) : spread32 x (ix2 n q) = x (ix2 n (0 : Fin 1)) :=
  cols32 x _ n q

/-- A float constant over a whole shape. -/
def splat (t : Shape) (h : S_.BroadcastsInDim t ![]) (b : BitVec 32) : FVec Ideal t .f32 :=
  broadcastInDim t ![] h (constant (F := Ideal) S_ .f32 b)
theorem splat_apply (t : Shape) (h : S_.BroadcastsInDim t ![]) (b : BitVec 32) (j : t.Idx) : splat t h b j = Ideal.ofBits .f32 b := by
  unfold splat
  rw [RowLayout.spread_scalar, constant_apply]

/-! ## The stages at `(n, j)`

The neighbour sum and the degree are never opened: both programs form them with the same operations, and every lemma
below holds of them as arrays of unknown contents. -/

attribute [local irreducible] nbrSum degree

theorem softplus_eq (v : FVec Ideal S100000x64 .f32) :
    softplus (F := Ideal) v = select (cmpf .une (subf v (splat S100000x64 bcast_S_S100000x64 0x00000000#32)) (subf v (splat S100000x64 bcast_S_S100000x64 0x00000000#32)))
      (addf v (splat S100000x64 bcast_S_S100000x64 0x00000000#32))
      (addf (maximumf v (splat S100000x64 bcast_S_S100000x64 0x00000000#32))
        (Host.log1p (Host.exp (Host.negf (Host.absf (subf v (splat S100000x64 bcast_S_S100000x64 0x00000000#32))))))) := rfl

theorem softplus_apply (v : FVec Ideal S100000x64 .f32) (n : Fin 100000) (j : Fin 64) :
    softplus (F := Ideal) v (ix2 n j) = NodeDrift.softplus (v (ix2 n j)) := by
  rw [softplus_eq]
  simp only [select_apply, cmpf_apply, Ideal.cmpf_def, subf_apply, addf_apply, maximumf_apply, hlog1p_apply, hexp_apply, hneg_apply,
    habs_apply, splat_apply, Ideal.ofBits_zero_f32]
  exact NodeDrift.softplus_guard_une _

theorem affine64_eq (x0 : FVec Ideal S100000x64 .f32) (w : FVec Ideal S64x64 .f32) (b : FVec Ideal S64 .f32) :
    affine64 (F := Ideal) x0 w b = addf (Host.dotGeneral dot_S100000x64_S64x64_S100000x64_1_0_0_1_n_n none x0 (tr64 w)) (biasRows64 b) := rfl

theorem affine64_apply (x0 : FVec Ideal S100000x64 .f32) (w : FVec Ideal S64x64 .f32) (b : FVec Ideal S64 .f32) (n : Fin 100000) (j : Fin 64) :
    affine64 (F := Ideal) x0 w b (ix2 n j) = NodeDrift.affine (fun k => x0 (ix2 n k)) (fun k => w (ix2 j k)) (b (ix1 j)) := by
  rw [affine64_eq]
  unfold NodeDrift.affine
  simp only [addf_apply, prod64_apply, tr64_apply, biasRows64_apply]

theorem affine32_eq (x0 : FVec Ideal S100000x64 .f32) (w : FVec Ideal S32x64 .f32) (b : FVec Ideal S32 .f32) :
    affine32 (F := Ideal) x0 w b = addf (Host.dotGeneral dot_S100000x64_S64x32_S100000x32_1_0_0_1_n_n none x0 (tr32 w)) (biasRows32 b) := rfl

theorem affine32_apply (x0 : FVec Ideal S100000x64 .f32) (w : FVec Ideal S32x64 .f32) (b : FVec Ideal S32 .f32) (n : Fin 100000) (p : Fin 32) :
    affine32 (F := Ideal) x0 w b (ix2 n p) = NodeDrift.affine (fun k => x0 (ix2 n k)) (fun k => w (ix2 p k)) (b (ix1 p)) := by
  rw [affine32_eq]
  unfold NodeDrift.affine
  simp only [addf_apply, prod32_apply, tr32_apply, biasRows32_apply]

theorem nbrMean_eq (x1 : FVec Ideal S100000x32 .f32) (x2 x3 : (⟨S3200000, .i32⟩ : BufTy).Contents (Elt Ideal)) :
    nbrMean (F := Ideal) x1 x2 x3
      = select (spread32 (cmpf .ogt (col (degree (F := Ideal) x3)) (splat S100000x1 bcast_S_S100000x1 0x00000000#32)))
          (Host.divf (nbrSum (F := Ideal) x1 x2 x3) (spread32 (col (maximumf (degree (F := Ideal) x3) (splat S100000 bcast_S_S100000 0x3F800000#32)))))
          (splat S100000x32 bcast_S_S100000x32 0x00000000#32) := rfl

/-- The neighbour mean of ANY sum array `S` and degree array `d`, at node `n` and coordinate `q`. -/
theorem nbrMean_core (S : FVec Ideal S100000x32 .f32) (d : FVec Ideal S100000 .f32) (n : Fin 100000) (q : Fin 32) :
    select (spread32 (cmpf .ogt (col d) (splat S100000x1 bcast_S_S100000x1 0x00000000#32)))
        (Host.divf S (spread32 (col (maximumf d (splat S100000 bcast_S_S100000 0x3F800000#32)))))
        (splat S100000x32 bcast_S_S100000x32 0x00000000#32) (ix2 n q)
      = NodeDrift.nbrMean (S (ix2 n q)) (d (ix1 n)) := by
  rw [select_apply, spread32_apply, cmpf_apply, col_apply, splat_apply, hdiv_apply, spread32_apply, col_apply, maximumf_apply,
    splat_apply, splat_apply, Ideal.cmpf_def, Ideal.ofBits_zero_f32, Ideal.ofBits_one_f32]
  exact NodeDrift.nbrMean_quotient _ _

theorem nbrMean_apply (x1 : FVec Ideal S100000x32 .f32) (x2 x3 : (⟨S3200000, .i32⟩ : BufTy).Contents (Elt Ideal)) (n : Fin 100000) (q : Fin 32) :
    nbrMean (F := Ideal) x1 x2 x3 (ix2 n q) = NodeDrift.nbrMean (nbrSum (F := Ideal) x1 x2 x3 (ix2 n q)) (degree (F := Ideal) x3 (ix1 n)) := by
  rw [nbrMean_eq]
  exact nbrMean_core (nbrSum (F := Ideal) x1 x2 x3) (degree (F := Ideal) x3) n q

theorem aggregate_eq (x1 : FVec Ideal S100000x32 .f32) (x2 x3 : (⟨S3200000, .i32⟩ : BufTy).Contents (Elt Ideal)) (x10 : FVec Ideal S32x64 .f32) (x11 : FVec Ideal S32 .f32) :
    aggregate (F := Ideal) x1 x2 x3 x10 x11
      = maximumf (addf (Host.dotGeneral dot_S100000x64_S64x32_S100000x32_1_0_0_1_n_n none
            (concatenate S100000x64 1 [⟨S100000x32, x1⟩, ⟨S100000x32, nbrMean (F := Ideal) x1 x2 x3⟩] concatenates_S100000x32_S100000x32_S100000x64_d1)
            (tr32 x10)) (biasRows32 x11))
          (splat S100000x32 bcast_S_S100000x32 0x00000000#32) := rfl

theorem aggregate_apply (x1 : FVec Ideal S100000x32 .f32) (x2 x3 : (⟨S3200000, .i32⟩ : BufTy).Contents (Elt Ideal)) (x10 : FVec Ideal S32x64 .f32) (x11 : FVec Ideal S32 .f32)
    (n : Fin 100000) (q : Fin 32) :
    aggregate (F := Ideal) x1 x2 x3 x10 x11 (ix2 n q)
      = max (NodeDrift.affine
          (NodeDrift.join (fun p => x1 (ix2 n p)) (fun p => NodeDrift.nbrMean (nbrSum (F := Ideal) x1 x2 x3 (ix2 n p)) (degree (F := Ideal) x3 (ix1 n))))
          (fun k => x10 (ix2 q k)) (x11 (ix1 q))) 0 := by
  rw [aggregate_eq]
  unfold NodeDrift.affine
  simp only [maximumf_apply, addf_apply, prod32_apply, tr32_apply, biasRows32_apply, beside, nbrMean_apply, splat_apply,
    Ideal.ofBits_zero_f32]

theorem drift_apply (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) (n : Fin 100000) (j : Fin 64) :
    drift (F := Ideal) x0 x1 x2 x3 x4 x5 x6 x7 x8 x9 x10 x11 (ix2 n j)
      = NodeDrift.drift (fun k => x0 (ix2 n k))
          (fun j => NodeDrift.affine (fun k => x0 (ix2 n k)) (fun k => x4 (ix2 j k)) (x5 (ix1 j)))
          (fun j => NodeDrift.affine (fun k => x0 (ix2 n k)) (fun k => x6 (ix2 j k)) (x7 (ix1 j)))
          (NodeDrift.join (fun p => Ideal.tanh (NodeDrift.affine (fun k => x0 (ix2 n k)) (fun k => x8 (ix2 p k)) (x9 (ix1 p))))
            (fun q => max (NodeDrift.affine
              (NodeDrift.join (fun p => x1 (ix2 n p)) (fun p => NodeDrift.nbrMean (nbrSum (F := Ideal) x1 x2 x3 (ix2 n p)) (degree (F := Ideal) x3 (ix1 n))))
              (fun k => x10 (ix2 q k)) (x11 (ix1 q))) 0)) j := by
  unfold drift NodeDrift.drift
  simp only [addf_apply, mulf_apply, hneg_apply, softplus_apply, affine64_apply, beside, htanh_apply, affine32_apply, aggregate_apply]

/-- The first half of the state at `(n, p)` is the state at coordinate `p` of the 64. -/
theorem stateP_apply (x0 : FVec Ideal S100000x64 .f32) (n : Fin 100000) (p : Fin 32) :
    stateP (F := Ideal) x0 (ix2 n p) = x0 (ix2 n (NodeDrift.lo p)) := first32 x0 _ n p

/-- The first half of the drift at `(n, p)`. -/
theorem driftP_apply (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) (n : Fin 100000) (p : Fin 32) :
    driftP (F := Ideal) x0 x1 x2 x3 x4 x5 x6 x7 x8 x9 x10 x11 (ix2 n p) = drift (F := Ideal) x0 x1 x2 x3 x4 x5 x6 x7 x8 x9 x10 x11 (ix2 n (NodeDrift.lo p)) := first32 _ _ n p

/-- The first half of the result: the first half of the drift less its component along the first half of the state. -/
def projected (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) : FVec Ideal S100000x32 .f32 :=
  subf (driftP (F := Ideal) x0 x1 x2 x3 x4 x5 x6 x7 x8 x9 x10 x11)
    (mulf (spread32 (Host.divf
        (col (Host.reduceAdd (mulf (driftP (F := Ideal) x0 x1 x2 x3 x4 x5 x6 x7 x8 x9 x10 x11) (stateP (F := Ideal) x0)) (constant (F := Ideal) S_ .f32 0x00000000#32) reducesTo_S100000x32_S100000_d1 h_S_))
        (col (Host.reduceAdd (mulf (stateP (F := Ideal) x0) (stateP (F := Ideal) x0)) (constant (F := Ideal) S_ .f32 0x00000000#32) reducesTo_S100000x32_S100000_d1 h_S_))))
      (stateP (F := Ideal) x0))

/-- The second half of the result: the second half of the drift. -/
def kept (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) : FVec Ideal S100000x32 .f32 :=
  extractStridedSlice S100000x32 ![0, 32] (drift (F := Ideal) x0 x1 x2 x3 x4 x5 x6 x7 x8 x9 x10 x11) slices_S100000x64_S100000x32_0_32

theorem kept_apply (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) (n : Fin 100000) (q : Fin 32) :
    kept x0 x1 x2 x3 x4 x5 x6 x7 x8 x9 x10 x11 (ix2 n q) = drift (F := Ideal) x0 x1 x2 x3 x4 x5 x6 x7 x8 x9 x10 x11 (ix2 n (NodeDrift.hi q)) := last32 _ _ n q

theorem projected_apply (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) (n : Fin 100000) (p : Fin 32) :
    projected x0 x1 x2 x3 x4 x5 x6 x7 x8 x9 x10 x11 (ix2 n p)
      = drift (F := Ideal) x0 x1 x2 x3 x4 x5 x6 x7 x8 x9 x10 x11 (ix2 n (NodeDrift.lo p))
        - Ideal.div (∑ p' : Fin 32, drift (F := Ideal) x0 x1 x2 x3 x4 x5 x6 x7 x8 x9 x10 x11 (ix2 n (NodeDrift.lo p')) * x0 (ix2 n (NodeDrift.lo p')))
            (∑ p' : Fin 32, x0 (ix2 n (NodeDrift.lo p')) * x0 (ix2 n (NodeDrift.lo p'))) * x0 (ix2 n (NodeDrift.lo p)) := by
  unfold projected
  rw [subf_apply, mulf_apply, spread32_apply, hdiv_apply, col_apply, col_apply, rowsum, rowsum, driftP_apply, stateP_apply]
  simp only [mulf_apply, driftP_apply, stateP_apply]

theorem result_eq (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) :
    result (F := Ideal) x0 x1 x2 x3 x4 x5 x6 x7 x8 x9 x10 x11
      = concatenate S100000x64 1 [⟨S100000x32, projected x0 x1 x2 x3 x4 x5 x6 x7 x8 x9 x10 x11⟩, ⟨S100000x32, kept x0 x1 x2 x3 x4 x5 x6 x7 x8 x9 x10 x11⟩]
          concatenates_S100000x32_S100000x32_S100000x64_d1 := rfl

/-- The reference's result at node `n`, coordinate `j`. -/
theorem result_apply (x0 : FVec Ideal S100000x64 .f32) (x1 : FVec Ideal S100000x32 .f32) (x2 x3 : (⟨S3200000, .i32⟩ : BufTy).Contents (Elt Ideal)) (x4 : FVec Ideal S64x64 .f32) (x5 : FVec Ideal S64 .f32) (x6 : FVec Ideal S64x64 .f32) (x7 : FVec Ideal S64 .f32) (x8 : FVec Ideal S32x64 .f32) (x9 : FVec Ideal S32 .f32) (x10 : FVec Ideal S32x64 .f32) (x11 : FVec Ideal S32 .f32) (n : Fin 100000) (j : Fin 64) :
    result (F := Ideal) x0 x1 x2 x3 x4 x5 x6 x7 x8 x9 x10 x11 (ix2 n j)
      = NodeDrift.node (fun k => x0 (ix2 n k))
          (NodeDrift.join (fun p => x1 (ix2 n p)) (fun p => NodeDrift.nbrMean (nbrSum (F := Ideal) x1 x2 x3 (ix2 n p)) (degree (F := Ideal) x3 (ix1 n))))
          (fun j k => x4 (ix2 j k)) (fun j k => x6 (ix2 j k)) (fun j => x5 (ix1 j)) (fun j => x7 (ix1 j))
          (fun p k => x8 (ix2 p k)) (fun q k => x10 (ix2 q k)) (fun p => x9 (ix1 p)) (fun q => x11 (ix1 q)) j := by
  rw [result_eq, beside]
  unfold NodeDrift.node NodeDrift.project
  simp only [projected_apply, kept_apply, drift_apply]

end Cert.ReferenceIdeal.RefRead

end
-- ==== Proof.WindowArrays.lean ====
/-
  What the region's windows stage, as functions of the arguments.

  Before the region the host computes, from the arguments: the neighbour sum and the degree (the same two scatter-adds
  the reference makes); the reciprocal degree `1 / max(d, 1)` where `d > 0` and zero elsewhere, as a column; the two
  64 × 64 weight matrices transposed and set side by side, and their biases end to end as one row; the two 32 × 64
  weight matrices transposed; and the two short biases as rows. Read at an index, each of these is an entry of an
  argument, and with them the kernel's whole-array function is the reference's result: the only arithmetic between
  the two is the neighbour mean, a product with the reciprocal degree on one side and a quotient on the other.
-/
import proofs.«151539_j83915071029947_2_alg».proof.Proof.Gen.KernelIdeal.Frame
import proofs.«151539_j83915071029947_2_alg».proof.Proof.KernelArray
import proofs.«151539_j83915071029947_2_alg».proof.Proof.RefRead
import Idealize.ShloMosaic.Lib.StableHlo.Run

set_option maxRecDepth 16384

noncomputable section

namespace Cert.KernelIdeal.WindowArrays

open Cert.KernelIdeal Cert.KernelIdeal.Gen Idealize.ShloMosaic Idealize.ShloMosaic.TcCoe Idealize.SL.Sem Idealize.ShloMosaic.StableHlo
open Idealize.ShloMosaic.ValueIdx Cert.KernelIdeal.RowValue

variable (m : (ℓ : Loc nD τ sig) → Buf (Elt Ideal) ℓ)

/-- The degree count: each edge adds one at its destination. -/
def deg (c : Dev nD) : FVec Ideal S100000 .f32 :=
  Host.scatterAdd scatter_S100000_S3200000x1_S3200000_n_0_0_1
    (broadcastInDim S100000 ![] bcast_S_S100000 (constant (F := Ideal) S_ .f32 0x00000000#32))
    (broadcastInDim S3200000x1 ![0] bcast_S3200000_S3200000x1_0 (m (c, Proc.devRef .tc main_arg3)))
    (broadcastInDim S3200000 ![] bcast_S_S3200000 (constant (F := Ideal) S_ .f32 0x3F800000#32))

/-- It is the reference's degree of the same argument. -/
theorem deg_eq (c : Dev nD) : deg m c = Cert.ReferenceIdeal.RefRun.degree (F := Ideal) (m ((c : Thread nD τ).loc main_arg3)) := rfl

/-- Window 2 stages the neighbour sum. -/
theorem nbrSum_eq (c : Dev nD) :
    (V m c main_v9 : S100000x32.Idx → EReal) = Cert.ReferenceIdeal.RefRun.nbrSum (F := Ideal) (m ((c : Thread nD τ).loc main_arg1)) (m ((c : Thread nD τ).loc main_arg2)) (m ((c : Thread nD τ).loc main_arg3)) := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

/-! ## The reciprocal degree

Window 3's array is written in three stretches: the first forms the comparison `d > 0`, the quotient `1 / max(d, 1)` and
a zero; a called function selects between the quotient and the zero; a reshape makes the result a column. What the later
stretches compute holds for ARBITRARY values of the three arrays the first leaves them. -/

/-- The operations of a list run after those of another: first the one, then the other. -/
theorem after_append {Val : EltTy → Type} (l1 l2 : List (HloOp τ sig Val)) (W : Valuation τ sig Val) :
    after (l1 ++ l2) W = after l2 (after l1 W) := by
  induction l1 generalizing W with
  | nil => rfl
  | cons op ops ih => simp only [List.cons_append, after_cons, ih]

/-- The region's arrays, with the first stretch of host operations kept apart from the rest. -/
theorem V_split (c : Dev nD) (b : Ref sig .tc) :
    V m c b = after (hostOps0_1 ++ hostOps0_2) (after hostOps0 (fun b => m (c, b))) (Proc.devRef .tc b) := by
  show after (List.flatten [hostOps0, hostOps0_1, hostOps0_2]) (fun b => m (c, b)) (Proc.devRef .tc b) = _
  rw [show List.flatten [(hostOps0 : List (HloOp τ sig (Elt Ideal))), hostOps0_1, hostOps0_2] = hostOps0 ++ (hostOps0_1 ++ hostOps0_2) from by
    simp only [List.flatten_cons, List.flatten_nil, List.append_nil], after_append]

/-- What the later operations leave in the reciprocal-degree column, from ANY values of the three buffers they read: the
    selection, at each node, between the second and the (splat) third by the first. -/
theorem tail_invDegree (G : Valuation τ sig (Elt Ideal)) (n : Fin 100000) :
    (after (hostOps0_1 ++ hostOps0_2) G (Proc.devRef .tc main_v21) : S100000x1.Idx → EReal) (ix2 n (0 : Fin 1))
      = Scalar.select ((G (Proc.devRef .tc main_v15) : S100000.Idx → BitVec 1) (ix1 n))
          ((G (Proc.devRef .tc main_v19) : S100000.Idx → EReal) (ix1 n))
          ((G (Proc.devRef .tc main_cst_6) : S_.Idx → EReal) ix0) := by
  simp only [hostOps0_1, hostOps0_2, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  show shapeCast S100000x1 (_ : S100000.Idx → EReal) shapeCasts_S100000_S100000x1 (ix2 n (0 : Fin 1)) = _
  rw [RowLayout.shapeCast_a_a1_apply]
  show (select (_ : IVec S100000 1) (_ : S100000.Idx → EReal) (broadcastInDim S100000 ![] bcast_S_S100000 (_ : S_.Idx → EReal))) (ix1 n) = _
  rw [select_apply, RowLayout.spread_scalar]
  rfl

/-- What the first stretch leaves: the comparison of the degree with zero, -/
theorem first_positive (c : Dev nD) :
    (after hostOps0 (fun b => m (c, b)) (Proc.devRef .tc main_v15) : S100000.Idx → BitVec 1) = cmpf (F := Ideal) .ogt (deg m c) (broadcastInDim S100000 ![] bcast_S_S100000 (constant (F := Ideal) S_ .f32 0x00000000#32)) := by
  simp only [hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

/-- the reciprocal of the degree raised to at least one, -/
theorem first_reciprocal (c : Dev nD) :
    (after hostOps0 (fun b => m (c, b)) (Proc.devRef .tc main_v19) : S100000.Idx → EReal) = Host.divf (broadcastInDim S100000 ![] bcast_S_S100000 (constant (F := Ideal) S_ .f32 0x3F800000#32))
      (maximumf (deg m c) (broadcastInDim S100000 ![] bcast_S_S100000 (constant (F := Ideal) S_ .f32 0x3F800000#32))) := by
  simp only [hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

/-- and a zero. -/
theorem first_zero (c : Dev nD) :
    (after hostOps0 (fun b => m (c, b)) (Proc.devRef .tc main_cst_6) : S_.Idx → EReal) = constant (F := Ideal) S_ .f32 0x00000000#32 := by
  simp only [hostOps0]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

/-- Window 3 stages the reciprocal degree as a column: at node `n`, `1 / max(d, 1)` where `d > 0`, zero elsewhere. -/
theorem invDegree_apply (c : Dev nD) (n : Fin 100000) :
    (V m c main_v21 : S100000x1.Idx → EReal) (ix2 n (0 : Fin 1))
      = Scalar.select (Ideal.cmp .ogt (deg m c (ix1 n)) 0) (Ideal.div 1 (max (deg m c (ix1 n)) 1)) 0 := by
  rw [V_split, tail_invDegree, first_positive, first_reciprocal, first_zero, cmpf_apply, Cert.ReferenceIdeal.RefRead.hdiv_apply,
    maximumf_apply, RowLayout.spread_scalar, RowLayout.spread_scalar]
  simp only [constant_apply, Ideal.ofBits_zero_f32, Ideal.ofBits_one_f32, Ideal.cmpf_def]

/-- Window 4 stages `[Wfᵀ | Wgᵀ]`. -/
theorem packedW_eq (c : Dev nD) :
    (V m c main_v25 : S64x128.Idx → EReal)
      = (truncf (F := Ideal) .bf16 (concatenate S64x128 1
          [⟨S64x64, transpose S64x64 [1, 0] ((m ((c : Thread nD τ).loc main_arg4)) : FVec Ideal S64x64 .f32) transposes_S64x64_S64x64_1_0⟩,
           ⟨S64x64, transpose S64x64 [1, 0] ((m ((c : Thread nD τ).loc main_arg6)) : FVec Ideal S64x64 .f32) transposes_S64x64_S64x64_1_0⟩]
          concatenates_S64x64_S64x64_S64x128_d1) bitsLt_bf16_f32 : FVec Ideal S64x128 .bf16) := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem packedW_lo (c : Dev nD) (k j : Fin 64) :
    (V m c main_v25 : S64x128.Idx → EReal) (ix2 k (lo128 j)) = ((m ((c : Thread nD τ).loc main_arg4)) : S64x64.Idx → EReal) (ix2 j k) := by
  rw [packedW_eq, truncf_apply, RowLayout.concat_cols_left _ _ _ k (lo128 j) j rfl, transpose_ix2_apply]

theorem packedW_hi (c : Dev nD) (k j : Fin 64) :
    (V m c main_v25 : S64x128.Idx → EReal) (ix2 k (hi128 j)) = ((m ((c : Thread nD τ).loc main_arg6)) : S64x64.Idx → EReal) (ix2 j k) := by
  rw [packedW_eq, truncf_apply, RowLayout.concat_cols_right _ _ _ k (hi128 j) j (Nat.add_comm _ _), transpose_ix2_apply]

/-- Window 5 stages `[bf | bg]` as a row. -/
theorem packedB_eq (c : Dev nD) :
    (V m c main_v27 : S1x128.Idx → EReal)
      = shapeCast S1x128 (concatenate S128 0 [⟨S64, ((m ((c : Thread nD τ).loc main_arg5)) : FVec Ideal S64 .f32)⟩, ⟨S64, ((m ((c : Thread nD τ).loc main_arg7)) : FVec Ideal S64 .f32)⟩]
          concatenates_S64_S64_S128_d0) shapeCasts_S128_S1x128 := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem packedB_lo (c : Dev nD) (j : Fin 64) :
    (V m c main_v27 : S1x128.Idx → EReal) (ix2 (0 : Fin 1) (lo128 j)) = ((m ((c : Thread nD τ).loc main_arg5)) : S64.Idx → EReal) (ix1 j) := by
  rw [packedB_eq, shapeCast_a_1a_apply, RowLayout.concat_vec_left _ _ _ (lo128 j) j rfl]

theorem packedB_hi (c : Dev nD) (j : Fin 64) :
    (V m c main_v27 : S1x128.Idx → EReal) (ix2 (0 : Fin 1) (hi128 j)) = ((m ((c : Thread nD τ).loc main_arg7)) : S64.Idx → EReal) (ix1 j) := by
  rw [packedB_eq, shapeCast_a_1a_apply, RowLayout.concat_vec_right _ _ _ (hi128 j) j (Nat.add_comm _ _)]

/-- Window 6 stages `Wzᵀ`, window 8 `W_Aᵀ`. -/
theorem WzT_eq (c : Dev nD) :
    (V m c main_v29 : S64x32.Idx → EReal)
      = (truncf (F := Ideal) .bf16 (transpose S64x32 [1, 0] ((m ((c : Thread nD τ).loc main_arg8)) : FVec Ideal S32x64 .f32) transposes_S32x64_S64x32_1_0) bitsLt_bf16_f32 : FVec Ideal S64x32 .bf16) := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem WzT_apply (c : Dev nD) (k : Fin 64) (p : Fin 32) :
    (V m c main_v29 : S64x32.Idx → EReal) (ix2 k p) = ((m ((c : Thread nD τ).loc main_arg8)) : S32x64.Idx → EReal) (ix2 p k) := by
  rw [WzT_eq, truncf_apply, transpose_ix2_apply]

theorem WAT_eq (c : Dev nD) :
    (V m c main_v31 : S64x32.Idx → EReal)
      = (truncf (F := Ideal) .bf16 (transpose S64x32 [1, 0] ((m ((c : Thread nD τ).loc main_arg10)) : FVec Ideal S32x64 .f32) transposes_S32x64_S64x32_1_0) bitsLt_bf16_f32 : FVec Ideal S64x32 .bf16) := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem WAT_apply (c : Dev nD) (k : Fin 64) (q : Fin 32) :
    (V m c main_v31 : S64x32.Idx → EReal) (ix2 k q) = ((m ((c : Thread nD τ).loc main_arg10)) : S32x64.Idx → EReal) (ix2 q k) := by
  rw [WAT_eq, truncf_apply, transpose_ix2_apply]

/-- Windows 7 and 9 stage `bz` and `b_A` as rows. -/
theorem bz_eq (c : Dev nD) :
    (V m c main_v32 : S1x32.Idx → EReal) = shapeCast S1x32 ((m ((c : Thread nD τ).loc main_arg9)) : FVec Ideal S32 .f32) shapeCasts_S32_S1x32 := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem bz_apply (c : Dev nD) (p : Fin 32) :
    (V m c main_v32 : S1x32.Idx → EReal) (ix2 (0 : Fin 1) p) = ((m ((c : Thread nD τ).loc main_arg9)) : S32.Idx → EReal) (ix1 p) := by
  rw [bz_eq, shapeCast_a_1a_apply]

theorem bA_eq (c : Dev nD) :
    (V m c main_v33 : S1x32.Idx → EReal) = shapeCast S1x32 ((m ((c : Thread nD τ).loc main_arg11)) : FVec Ideal S32 .f32) shapeCasts_S32_S1x32 := by
  dsimp only [V]
  simp only [hostOps0, hostOps0_1, hostOps0_2, List.flatten_cons, List.flatten_nil, List.append_nil, List.cons_append, List.nil_append]
  simp (disch := decide) only [after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', RowLayout.concat2_eq]
  all_goals rfl

theorem bA_apply (c : Dev nD) (q : Fin 32) :
    (V m c main_v33 : S1x32.Idx → EReal) (ix2 (0 : Fin 1) q) = ((m ((c : Thread nD τ).loc main_arg11)) : S32.Idx → EReal) (ix1 q) := by
  rw [bA_eq, shapeCast_a_1a_apply]

/-! ## The staged weights and biases as the functions the node function takes -/

theorem packedW_lo_fun (c : Dev nD) :
    (fun (j k : Fin 64) => (V m c main_v25 : S64x128.Idx → EReal) (ix2 k (lo128 j))) = fun j k => ((m ((c : Thread nD τ).loc main_arg4)) : S64x64.Idx → EReal) (ix2 j k) :=
  funext fun j => funext fun k => packedW_lo m c k j

theorem packedW_hi_fun (c : Dev nD) :
    (fun (j k : Fin 64) => (V m c main_v25 : S64x128.Idx → EReal) (ix2 k (hi128 j))) = fun j k => ((m ((c : Thread nD τ).loc main_arg6)) : S64x64.Idx → EReal) (ix2 j k) :=
  funext fun j => funext fun k => packedW_hi m c k j

theorem packedB_lo_fun (c : Dev nD) :
    (fun j : Fin 64 => (V m c main_v27 : S1x128.Idx → EReal) (ix2 (0 : Fin 1) (lo128 j))) = fun j => ((m ((c : Thread nD τ).loc main_arg5)) : S64.Idx → EReal) (ix1 j) :=
  funext fun j => packedB_lo m c j

theorem packedB_hi_fun (c : Dev nD) :
    (fun j : Fin 64 => (V m c main_v27 : S1x128.Idx → EReal) (ix2 (0 : Fin 1) (hi128 j))) = fun j => ((m ((c : Thread nD τ).loc main_arg7)) : S64.Idx → EReal) (ix1 j) :=
  funext fun j => packedB_hi m c j

theorem WzT_fun (c : Dev nD) :
    (fun (p : Fin 32) (k : Fin 64) => (V m c main_v29 : S64x32.Idx → EReal) (ix2 k p)) = fun p k => ((m ((c : Thread nD τ).loc main_arg8)) : S32x64.Idx → EReal) (ix2 p k) :=
  funext fun p => funext fun k => WzT_apply m c k p

theorem WAT_fun (c : Dev nD) :
    (fun (q : Fin 32) (k : Fin 64) => (V m c main_v31 : S64x32.Idx → EReal) (ix2 k q)) = fun q k => ((m ((c : Thread nD τ).loc main_arg10)) : S32x64.Idx → EReal) (ix2 q k) :=
  funext fun q => funext fun k => WAT_apply m c k q

theorem bz_fun (c : Dev nD) :
    (fun p : Fin 32 => (V m c main_v32 : S1x32.Idx → EReal) (ix2 (0 : Fin 1) p)) = fun p => ((m ((c : Thread nD τ).loc main_arg9)) : S32.Idx → EReal) (ix1 p) :=
  funext fun p => bz_apply m c p

theorem bA_fun (c : Dev nD) :
    (fun q : Fin 32 => (V m c main_v33 : S1x32.Idx → EReal) (ix2 (0 : Fin 1) q)) = fun q => ((m ((c : Thread nD τ).loc main_arg11)) : S32.Idx → EReal) (ix1 q) :=
  funext fun q => bA_apply m c q

/-- The kernel's whole-array function of the staged arrays is the reference's result of the arguments. -/
theorem nodes_eq_result (c : Dev nD) :
    Cert.KernelIdeal.ArrayValue.nodes (V m c main_arg0) (V m c main_arg1) (V m c main_v9) (V m c main_v21) (V m c main_v25) (V m c main_v27) (V m c main_v29) (V m c main_v32) (V m c main_v31) (V m c main_v33)
      = Cert.ReferenceIdeal.RefRun.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  obtain ⟨n, j, rfl⟩ : ∃ (n : Fin 100000) (j : Fin 64), i = ix2 n j := ⟨⟨(i 0).val, idx2_lt0 i⟩, ⟨(i 1).val, idx2_lt1 i⟩, eq_ix2 i⟩
  rw [Cert.ReferenceIdeal.RefRead.result_apply]
  show Cert.KernelIdeal.ArrayValue.nodeAt (V m c main_arg0) (V m c main_arg1) (V m c main_v9) (V m c main_v21) (V m c main_v25) (V m c main_v27) (V m c main_v29) (V m c main_v32) (V m c main_v31) (V m c main_v33) n j = _
  rw [V_main_arg0, V_main_arg1, nbrSum_eq]
  unfold Cert.KernelIdeal.ArrayValue.nodeAt
  rw [invDegree_apply, deg_eq, packedW_lo_fun, packedW_hi_fun, packedB_lo_fun, packedB_hi_fun, WzT_fun, WAT_fun, bz_fun, bA_fun]
  simp only [Cert.NodeDrift.nbrMean_product]

end Cert.KernelIdeal.WindowArrays

end
-- ==== Proof.lean ====
/-
  The kernel against its reference: one node's drift, computed tile by tile on the TensorCore and all at once on the host.

  Both programs first form, with the same host operations, each node's neighbour sum of intensities and its degree.
  The reference then divides the sum by `max(degree, 1)` (zero for an isolated node), sets the result beside the node's
  own intensity, and computes `du = -softplus(Wf u + bf) · u + softplus(Wg u + bg) · [tanh(Wz u + bz) ; relu(W_A cat + b_A)]`
  and the projection of its first half off the first half of `u`. The kernel computes the same thing for 5000 nodes at a
  time, with `Wf` and `Wg` transposed and packed side by side into one product, and with the neighbour mean formed inside
  the body as the sum times `1 / max(degree, 1)`.

  On the extended reals every step of the two is the same function except that last one, and there a quotient by
  `max(d, 1)` and a product with its reciprocal agree because `max(d, 1) ≥ 1` is never zero (NodeSpec). Nothing in the
  argument uses that the inputs are finite. The modules: NodeSpec (one node's function and the scalar laws), KernelRow (the
  body's stored value at a row), KernelArray (the twenty blocks are one function of the staged arrays, which cover the
  result), RefRun and RefRead (the reference's run and its value at a node), WindowArrays (the staged arrays as
  functions of the arguments, and the two whole-array functions equal).
-/
import proofs.«151539_j83915071029947_2_alg».proof.Defs
import proofs.«151539_j83915071029947_2_alg».proof.Proof.Gen.Kernel
import proofs.«151539_j83915071029947_2_alg».proof.Proof.Gen.Kernel.Skeleton
import proofs.«151539_j83915071029947_2_alg».proof.Proof.Gen.Kernel.Launch
import proofs.«151539_j83915071029947_2_alg».proof.Proof.Gen.Kernel.Points
import proofs.«151539_j83915071029947_2_alg».proof.Proof.Gen.Kernel.Frame
import proofs.«151539_j83915071029947_2_alg».proof.Proof.Gen.KernelIdeal
import proofs.«151539_j83915071029947_2_alg».proof.Proof.Gen.KernelIdeal.Skeleton
import proofs.«151539_j83915071029947_2_alg».proof.Proof.Gen.KernelIdeal.Launch
import proofs.«151539_j83915071029947_2_alg».proof.Proof.Gen.KernelIdeal.Points
import proofs.«151539_j83915071029947_2_alg».proof.Proof.Gen.KernelIdeal.Frame
import proofs.«151539_j83915071029947_2_alg».proof.Proof.Gen.ReferenceIdeal
import proofs.«151539_j83915071029947_2_alg».proof.Proof.Gen.Pre_finite_inputs
import proofs.«151539_j83915071029947_2_alg».proof.Proof.Gen.KernelIdeal.Value
import proofs.«151539_j83915071029947_2_alg».proof.Proof.KernelArray
import proofs.«151539_j83915071029947_2_alg».proof.Proof.RefRun
import proofs.«151539_j83915071029947_2_alg».proof.Proof.WindowArrays
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- And the reference: its run, with the result dropped. -/
theorem frame_reference : Cert.frame_ReferenceIdeal :=
  fun m ρ _ => (θ_run Cert.ReferenceIdeal.defs _ _).mono (fun _ h c => (h c).2) (Cert.ReferenceIdeal.RefRun.run (F := Ideal) m ρ)

/-- Both programs end with the same result array: the kernel's is `nodes` of the arrays its windows stage, the reference's
    is `result` of the arguments, and the two are one function of arguments that agree. -/
theorem algebraic : Cert.algebraic_KernelIdeal_ReferenceIdeal := by
  intro m ρ m' ρ' _ hagree
  refine ⟨fun c => Cert.KernelIdeal.ArrayValue.nodes (Cert.KernelIdeal.Gen.V m c Cert.KernelIdeal.main_arg0) (Cert.KernelIdeal.Gen.V m c Cert.KernelIdeal.main_arg1) (Cert.KernelIdeal.Gen.V m c Cert.KernelIdeal.main_v9) (Cert.KernelIdeal.Gen.V m c Cert.KernelIdeal.main_v21) (Cert.KernelIdeal.Gen.V m c Cert.KernelIdeal.main_v25) (Cert.KernelIdeal.Gen.V m c Cert.KernelIdeal.main_v27) (Cert.KernelIdeal.Gen.V m c Cert.KernelIdeal.main_v29) (Cert.KernelIdeal.Gen.V m c Cert.KernelIdeal.main_v32) (Cert.KernelIdeal.Gen.V m c Cert.KernelIdeal.main_v31) (Cert.KernelIdeal.Gen.V m c Cert.KernelIdeal.main_v33), Cert.KernelIdeal.ArrayValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11⟩ := hagree c
  rw [a0, a1, a2, a3, a4, a5, a6, a7, a8, a9, a10, a11]
  exact (Cert.KernelIdeal.WindowArrays.nodes_eq_result m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
